-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x40000x64 : Shape := ⟨3, ![2, 40000, 64]⟩
abbrev S2x40000x16 : Shape := ⟨3, ![2, 40000, 16]⟩
abbrev S2x640000 : Shape := ⟨2, ![2, 640000]⟩
abbrev S2x40000x16x16 : Shape := ⟨4, ![2, 40000, 16, 16]⟩
abbrev S2x40000x16x3 : Shape := ⟨4, ![2, 40000, 16, 3]⟩
abbrev S128x1072 : Shape := ⟨2, ![128, 1072]⟩
abbrev S128 : Shape := ⟨1, ![128]⟩
abbrev S_ : Shape := ⟨0, ![]⟩

class Facts : Prop where
  bcast_S_S2x40000x64 : S_.BroadcastsInDim S2x40000x64 (![] : Fin 0 → Fin S2x40000x64.rank)
  reducesTo_S2x40000x64_S_d0_1_2 : S2x40000x64.ReducesTo [0, 1, 2] S_
  h_S_ : 0 < S_.numel
  bcast_S_S2x40000x16x16 : S_.BroadcastsInDim S2x40000x16x16 (![] : Fin 0 → Fin S2x40000x16x16.rank)
  reducesTo_S2x40000x16x16_S_d0_1_2_3 : S2x40000x16x16.ReducesTo [0, 1, 2, 3] S_
  bcast_S_S2x40000x16x3 : S_.BroadcastsInDim S2x40000x16x3 (![] : Fin 0 → Fin S2x40000x16x3.rank)
  reducesTo_S2x40000x16x3_S_d0_1_2_3 : S2x40000x16x3.ReducesTo [0, 1, 2, 3] S_
  bcast_S_S128x1072 : S_.BroadcastsInDim S128x1072 (![] : Fin 0 → Fin S128x1072.rank)
  reducesTo_S128x1072_S_d0_1 : S128x1072.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128 .f32) (main_v13 : IVec S_ 1) (main_v16 : IVec S128x1072 1) : IVec S_ 1 :=
  let main_c_5 : IVec S_ 1 := constantI S_ 1 1#1
  let main_v17 : IVec S_ 1 := (fun x v => Host.reduce IntOp.andi x v reducesTo_S128x1072_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2x40000x64 .f32) (main_arg1 : IVec S2x40000x16 32) (main_arg2 : IVec S2x640000 32) (main_arg3 : IVec S2x640000 32) (main_arg4 : IVec S2x640000 32) (main_arg5 : FVec F S2x40000x16x16 .f32) (main_arg6 : FVec F S2x40000x16x3 .f32) (main_arg7 : FVec F S128x1072 .f32) (main_arg8 : FVec F S128 .f32) : IVec S_ 1 :=
  let main_v0 : FVec F S2x40000x64 .f32 := Host.absf main_arg0
  let main_cst : FVec F S_ .f32 := constant S_ .f32 0x7F800000#32
  let main_v1 : FVec F S2x40000x64 .f32 := broadcastInDim S2x40000x64 ![] bcast_S_S2x40000x64 main_cst
  let main_v2 : IVec S2x40000x64 1 := cmpf .olt main_v0 main_v1
  let main_c : IVec S_ 1 := constantI S_ 1 1#1
  let main_v3 : IVec S_ 1 := (fun x v => Host.reduce IntOp.andi x v reducesTo_S2x40000x64_S_d0_1_2 h_S_) main_v2 main_c
  let main_v4 : FVec F S2x40000x16x16 .f32 := Host.absf main_arg5
  let main_cst_0 : FVec F S_ .f32 := constant S_ .f32 0x7F800000#32
  let main_v5 : FVec F S2x40000x16x16 .f32 := broadcastInDim S2x40000x16x16 ![] bcast_S_S2x40000x16x16 main_cst_0
  let main_v6 : IVec S2x40000x16x16 1 := cmpf .olt main_v4 main_v5
  let main_c_1 : IVec S_ 1 := constantI S_ 1 1#1
  let main_v7 : IVec S_ 1 := (fun x v => Host.reduce IntOp.andi x v reducesTo_S2x40000x16x16_S_d0_1_2_3 h_S_) main_v6 main_c_1
  let main_v8 : IVec S_ 1 := andi main_v3 main_v7
  let main_v9 : FVec F S2x40000x16x3 .f32 := Host.absf main_arg6
  let main_cst_2 : FVec F S_ .f32 := constant S_ .f32 0x7F800000#32
  let main_v10 : FVec F S2x40000x16x3 .f32 := broadcastInDim S2x40000x16x3 ![] bcast_S_S2x40000x16x3 main_cst_2
  let main_v11 : IVec S2x40000x16x3 1 := cmpf .olt main_v9 main_v10
  let main_c_3 : IVec S_ 1 := constantI S_ 1 1#1
  let main_v12 : IVec S_ 1 := (fun x v => Host.reduce IntOp.andi x v reducesTo_S2x40000x16x3_S_d0_1_2_3 h_S_) main_v11 main_c_3
  let main_v13 : IVec S_ 1 := andi main_v8 main_v12
  let main_v14 : FVec F S128x1072 .f32 := Host.absf main_arg7
  let main_cst_4 : FVec F S_ .f32 := constant S_ .f32 0x7F800000#32
  let main_v15 : FVec F S128x1072 .f32 := broadcastInDim S128x1072 ![] bcast_S_S128x1072 main_cst_4
  let main_v16 : IVec S128x1072 1 := cmpf .olt main_v14 main_v15
  fn_part1 (F := F) main_arg8 main_v13 main_v16
-- ==== Kernel.lean ====
abbrev S2x40000x64 : Shape := ⟨3, ![2, 40000, 64]⟩
abbrev S2x40000x16 : Shape := ⟨3, ![2, 40000, 16]⟩
abbrev S2x640000 : Shape := ⟨2, ![2, 640000]⟩
abbrev S2x40000x16x16 : Shape := ⟨4, ![2, 40000, 16, 16]⟩
abbrev S2x40000x16x3 : Shape := ⟨4, ![2, 40000, 16, 3]⟩
abbrev S128x1072 : Shape := ⟨2, ![128, 1072]⟩
abbrev S128 : Shape := ⟨1, ![128]⟩
abbrev S2x40000x1x64 : Shape := ⟨4, ![2, 40000, 1, 64]⟩
abbrev S2x40000x16x1 : Shape := ⟨4, ![2, 40000, 16, 1]⟩
abbrev S_ : Shape := ⟨0, ![]⟩
abbrev S1 : Shape := ⟨1, ![1]⟩
abbrev S1x1x1x1 : Shape := ⟨4, ![1, 1, 1, 1]⟩
abbrev S2x40000x16x64 : Shape := ⟨4, ![2, 40000, 16, 64]⟩
abbrev S2x40000x128 : Shape := ⟨3, ![2, 40000, 128]⟩
abbrev S1x400x16x64 : Shape := ⟨4, ![1, 400, 16, 64]⟩
abbrev S1x400x16x3 : Shape := ⟨4, ![1, 400, 16, 3]⟩
abbrev S1x400x16x16 : Shape := ⟨4, ![1, 400, 16, 16]⟩
abbrev S1x400x128 : Shape := ⟨3, ![1, 400, 128]⟩
abbrev S400x16x64 : Shape := ⟨3, ![400, 16, 64]⟩
abbrev S400x16x16 : Shape := ⟨3, ![400, 16, 16]⟩
abbrev S400x16x3 : Shape := ⟨3, ![400, 16, 3]⟩
abbrev S400x64x16 : Shape := ⟨3, ![400, 64, 16]⟩
abbrev S400x3x16 : Shape := ⟨3, ![400, 3, 16]⟩
abbrev S400x67x16 : Shape := ⟨3, ![400, 67, 16]⟩
abbrev S400x1072 : Shape := ⟨2, ![400, 1072]⟩
abbrev S400x128 : Shape := ⟨2, ![400, 128]⟩
abbrev S1x128 : Shape := ⟨2, ![1, 128]⟩

abbrev nBuf : Space → Nat
  | .hbm => 36
  | .vmem => 10
  | .smem => 0
  | _ => 0

abbrev bufTy : (tb : Table) → Fin (tcTables nBuf tb) → BufTy
  | .hbm, ⟨0, _⟩ => ⟨S2x40000x64, .f32⟩
  | .hbm, ⟨1, _⟩ => ⟨S2x40000x16, .i32⟩
  | .hbm, ⟨2, _⟩ => ⟨S2x640000, .i32⟩
  | .hbm, ⟨3, _⟩ => ⟨S2x640000, .i32⟩
  | .hbm, ⟨4, _⟩ => ⟨S2x640000, .i32⟩
  | .hbm, ⟨5, _⟩ => ⟨S2x40000x16x16, .f32⟩
  | .hbm, ⟨6, _⟩ => ⟨S2x40000x16x3, .f32⟩
  | .hbm, ⟨7, _⟩ => ⟨S128x1072, .f32⟩
  | .hbm, ⟨8, _⟩ => ⟨S128, .f32⟩
  | .hbm, ⟨9, _⟩ => ⟨S2x40000x1x64, .f32⟩
  | .hbm, ⟨10, _⟩ => ⟨S2x40000x16x1, .i32⟩
  | .hbm, ⟨11, _⟩ => ⟨S_, .i32⟩
  | .hbm, ⟨12, _⟩ => ⟨S2x40000x16x1, .i32⟩
  | .hbm, ⟨13, _⟩ => ⟨S2x40000x16x1, .i1⟩
  | .hbm, ⟨14, _⟩ => ⟨S_, .i32⟩
  | .hbm, ⟨15, _⟩ => ⟨S2x40000x16x1, .i32⟩
  | .hbm, ⟨16, _⟩ => ⟨S2x40000x16x1, .i32⟩
  | .hbm, ⟨17, _⟩ => ⟨S2x40000x16x1, .i32⟩
  | .hbm, ⟨18, _⟩ => ⟨S2x40000x64, .f32⟩
  | .hbm, ⟨19, _⟩ => ⟨S1, .i32⟩
  | .hbm, ⟨20, _⟩ => ⟨S_, .i32⟩
  | .hbm, ⟨21, _⟩ => ⟨S2x40000x16x1, .i32⟩
  | .hbm, ⟨22, _⟩ => ⟨S2x40000x16x1, .i1⟩
  | .hbm, ⟨23, _⟩ => ⟨S1x1x1x1, .i32⟩
  | .hbm, ⟨24, _⟩ => ⟨S2x40000x16x1, .i32⟩
  | .hbm, ⟨25, _⟩ => ⟨S2x40000x16x1, .i1⟩
  | .hbm, ⟨26, _⟩ => ⟨S2x40000x16x1, .i1⟩
  | .hbm, ⟨27, _⟩ => ⟨S_, .i1⟩
  | .hbm, ⟨28, _⟩ => ⟨S2x40000x16, .i1⟩
  | .hbm, ⟨29, _⟩ => ⟨S2x40000x16x64, .f32⟩
  | .hbm, ⟨30, _⟩ => ⟨S2x40000x16x64, .i1⟩
  | .hbm, ⟨31, _⟩ => ⟨S_, .f32⟩
  | .hbm, ⟨32, _⟩ => ⟨S2x40000x16x64, .f32⟩
  | .hbm, ⟨33, _⟩ => ⟨S2x40000x16x64, .f32⟩
  | .hbm, ⟨34, _⟩ => ⟨S2x40000x16x64, .bf16⟩
  | .hbm, ⟨35, _⟩ => ⟨S2x40000x128, .f32⟩
  | .local _ .vmem, ⟨0, _⟩ => ⟨S1x400x16x64, .bf16⟩
  | .local _ .vmem, ⟨1, _⟩ => ⟨S1x400x16x64, .bf16⟩
  | .local _ .vmem, ⟨2, _⟩ => ⟨S1x400x16x3, .f32⟩
  | .local _ .vmem, ⟨3, _⟩ => ⟨S1x400x16x3, .f32⟩
  | .local _ .vmem, ⟨4, _⟩ => ⟨S1x400x16x16, .f32⟩
  | .local _ .vmem, ⟨5, _⟩ => ⟨S1x400x16x16, .f32⟩
  | .local _ .vmem, ⟨6, _⟩ => ⟨S128x1072, .f32⟩
  | .local _ .vmem, ⟨7, _⟩ => ⟨S128, .f32⟩
  | .local _ .vmem, ⟨8, _⟩ => ⟨S1x400x128, .f32⟩
  | .local _ .vmem, ⟨9, _⟩ => ⟨S1x400x128, .f32⟩
  | _, _ => ⟨S2x40000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 100], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x400x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x400x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x400x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S2x40000x64_S2x40000x1x64_0_1_3 : S2x40000x64.BroadcastsInDim S2x40000x1x64 (![0, 1, 3] : Fin 3 → Fin S2x40000x1x64.rank)
  bcast_S2x40000x16_S2x40000x16x1_0_1_2 : S2x40000x16.BroadcastsInDim S2x40000x16x1 (![0, 1, 2] : Fin 3 → Fin S2x40000x16x1.rank)
  bcast_S_S2x40000x16x1 : S_.BroadcastsInDim S2x40000x16x1 (![] : Fin 0 → Fin S2x40000x16x1.rank)
  shapeCasts_S2x40000x1x64_S2x40000x64 : S2x40000x1x64.ShapeCasts S2x40000x64
  bcast_S1_S1x1x1x1_3 : S1.BroadcastsInDim S1x1x1x1 (![3] : Fin 1 → Fin S1x1x1x1.rank)
  bcast_S1x1x1x1_S2x40000x16x1_0_1_2_3 : S1x1x1x1.BroadcastsInDim S2x40000x16x1 (![0, 1, 2, 3] : Fin 4 → Fin S2x40000x16x1.rank)
  reducesTo_S2x40000x16x1_S2x40000x16_d3 : S2x40000x16x1.ReducesTo [3] S2x40000x16
  h_S_ : 0 < S_.numel
  bcast_S2x40000x16_S2x40000x16x64_0_1_2 : S2x40000x16.BroadcastsInDim S2x40000x16x64 (![0, 1, 2] : Fin 3 → Fin S2x40000x16x64.rank)
  bcast_S_S2x40000x16x64 : S_.BroadcastsInDim S2x40000x16x64 (![] : Fin 0 → Fin S2x40000x16x64.rank)
  bitsLt_bf16_f32 : FTy.bits .bf16 < FTy.bits .f32
  inb_S1x400x16x64_S1x400x16x64_0_0_0_0 : ∀ a, (![0, 0, 0, 0] : Fin 4 → Nat) a + S1x400x16x64.size a ≤ S1x400x16x64.size a
  h_S1x400x16x64 : 0 < S1x400x16x64.numel
  shapeCasts_S1x400x16x64_S400x16x64 : S1x400x16x64.ShapeCasts S400x16x64
  inb_S1x400x16x16_S1x400x16x16_0_0_0_0 : ∀ a, (![0, 0, 0, 0] : Fin 4 → Nat) a + S1x400x16x16.size a ≤ S1x400x16x16.size a
  h_S1x400x16x16 : 0 < S1x400x16x16.numel
  shapeCasts_S1x400x16x16_S400x16x16 : S1x400x16x16.ShapeCasts S400x16x16
  inb_S1x400x16x3_S1x400x16x3_0_0_0_0 : ∀ a, (![0, 0, 0, 0] : Fin 4 → Nat) a + S1x400x16x3.size a ≤ S1x400x16x3.size a
  h_S1x400x16x3 : 0 < S1x400x16x3.numel
  shapeCasts_S1x400x16x3_S400x16x3 : S1x400x16x3.ShapeCasts S400x16x3
  concatenates_S400x64x16_S400x3x16_S400x67x16_d1 : Shape.Concatenates [S400x64x16, S400x3x16] S400x67x16 1
  shapeCasts_S400x67x16_S400x1072 : S400x67x16.ShapeCasts S400x1072
  inb_S128x1072_S128x1072_0_0 : ∀ a, (![0, 0] : Fin 2 → Nat) a + S128x1072.size a ≤ S128x1072.size a
  h_S128x1072 : 0 < S128x1072.numel
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S1x400x128_S1x400x128_0_0_0 : ∀ a, (![0, 0, 0] : Fin 3 → Nat) a + S1x400x128.size a ≤ S1x400x128.size a
  h_S1x400x128 : 0 < S1x400x128.numel
  shapeCasts_S1x400x128_S400x128 : S1x400x128.ShapeCasts S400x128
  shapeCasts_S400x128_S1x400x128 : S400x128.ShapeCasts S1x400x128
  gather_S2x40000x64_S2x40000x16x1_S2x40000x16x64_3_1_0_0_1_3_1164_wf : GatherDims.WF S2x40000x64 S2x40000x16x1 S2x40000x16x64 [3] [1] [0] [1] [0] 3 ![1, 1, 64]
  dot_S400x16x64_S400x16x16_S400x64x16_1_1_2_2_0_0_wf : DotDims.WF S400x16x64 S400x16x16 S400x64x16 [1] [1] [2] [2] [0] [0]
  dot_S400x16x3_S400x16x16_S400x3x16_1_1_2_2_0_0_wf : DotDims.WF S400x16x3 S400x16x16 S400x3x16 [1] [1] [2] [2] [0] [0]
  dot_S400x1072_S128x1072_S400x128_1_1_0_0_n_n_wf : DotDims.WF S400x1072 S128x1072 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x16x64.size a ≤ S2x40000x16x64.size a
  hwx0_0 : ∀ i : grid0.Coords, EltTy.bits .bf16 = 32 ∨ (Rect.block (s := S2x40000x16x64) S1x400x16x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x16x3.size a ≤ S2x40000x16x3.size a
  hwx0_1 : ∀ i : grid0.Coords, EltTy.bits .f32 = 32 ∨ (Rect.block (s := S2x40000x16x3) S1x400x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x400x16x16.size a ≤ S2x40000x16x16.size a
  hwx0_2 : ∀ i : grid0.Coords, EltTy.bits .f32 = 32 ∨ (Rect.block (s := S2x40000x16x16) S1x400x16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1072.size a ≤ S128x1072.size a
  hwx0_3 : ∀ i : grid0.Coords, EltTy.bits .f32 = 32 ∨ (Rect.block (s := S128x1072) S128x1072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x400x128.size a ≤ S2x40000x128.size a
  hwx0_5 : ∀ i : grid0.Coords, EltTy.bits .f32 = 32 ∨ (Rect.block (s := S2x40000x128) S1x400x128.size (cc0_transform_5 i) (hinb0_5 i)).WholeWords (EltTy.packing .f32)

variable [Facts₀]

def gather_S2x40000x64_S2x40000x16x1_S2x40000x16x64_3_1_0_0_1_3_1164 : GatherDims S2x40000x64 S2x40000x16x1 S2x40000x16x64 where
  offsetDims := [3]
  collapsedSliceDims := [1]
  operandBatchingDims := [0]
  startIndicesBatchingDims := [0]
  startIndexMap := [1]
  indexVectorDim := 3
  sliceSizes := ![1, 1, 64]
  wf := gather_S2x40000x64_S2x40000x16x1_S2x40000x16x64_3_1_0_0_1_3_1164_wf
def dot_S400x16x64_S400x16x16_S400x64x16_1_1_2_2_0_0 : DotDims S400x16x64 S400x16x16 S400x64x16 where
  lhsContracting := [1]
  rhsContracting := [1]
  lhsNonContracting := [2]
  rhsNonContracting := [2]
  lhsBatch := [0]
  rhsBatch := [0]
  wf := dot_S400x16x64_S400x16x16_S400x64x16_1_1_2_2_0_0_wf
def dot_S400x16x3_S400x16x16_S400x3x16_1_1_2_2_0_0 : DotDims S400x16x3 S400x16x16 S400x3x16 where
  lhsContracting := [1]
  rhsContracting := [1]
  lhsNonContracting := [2]
  rhsNonContracting := [2]
  lhsBatch := [0]
  rhsBatch := [0]
  wf := dot_S400x16x3_S400x16x16_S400x3x16_1_1_2_2_0_0_wf
def dot_S400x1072_S128x1072_S400x128_1_1_0_0_n_n : DotDims S400x1072 S128x1072 S400x128 where
  lhsContracting := [1]
  rhsContracting := [1]
  lhsNonContracting := [0]
  rhsNonContracting := [0]
  lhsBatch := []
  rhsBatch := []
  wf := dot_S400x1072_S128x1072_S400x128_1_1_0_0_n_n_wf

abbrev win0_0 : Pipeline.Window sig grid0 :=
  Pipeline.Window.ofSpec (Memref.whole main_v3) S1x400x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x400x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x400x16x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x1072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x40000x64 : Shape := ⟨3, ![2, 40000, 64]⟩
abbrev S2x40000x16 : Shape := ⟨3, ![2, 40000, 16]⟩
abbrev S2x640000 : Shape := ⟨2, ![2, 640000]⟩
abbrev S2x40000x16x16 : Shape := ⟨4, ![2, 40000, 16, 16]⟩
abbrev S2x40000x16x3 : Shape := ⟨4, ![2, 40000, 16, 3]⟩
abbrev S128x1072 : Shape := ⟨2, ![128, 1072]⟩
abbrev S128 : Shape := ⟨1, ![128]⟩
abbrev S2x40000x1x64 : Shape := ⟨4, ![2, 40000, 1, 64]⟩
abbrev S2x40000x16x1 : Shape := ⟨4, ![2, 40000, 16, 1]⟩
abbrev S_ : Shape := ⟨0, ![]⟩
abbrev S1 : Shape := ⟨1, ![1]⟩
abbrev S1x1x1x1 : Shape := ⟨4, ![1, 1, 1, 1]⟩
abbrev S2x40000x16x64 : Shape := ⟨4, ![2, 40000, 16, 64]⟩
abbrev S2x40000x16x67 : Shape := ⟨4, ![2, 40000, 16, 67]⟩
abbrev S2x40000x67x16 : Shape := ⟨4, ![2, 40000, 67, 16]⟩
abbrev S2x40000x1072 : Shape := ⟨3, ![2, 40000, 1072]⟩
abbrev S2x40000x128 : Shape := ⟨3, ![2, 40000, 128]⟩
abbrev S1x1x128 : Shape := ⟨3, ![1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x40000x64, .f32⟩
  | .hbm, ⟨1, _⟩ => ⟨S2x40000x16, .i32⟩
  | .hbm, ⟨2, _⟩ => ⟨S2x640000, .i32⟩
  | .hbm, ⟨3, _⟩ => ⟨S2x640000, .i32⟩
  | .hbm, ⟨4, _⟩ => ⟨S2x640000, .i32⟩
  | .hbm, ⟨5, _⟩ => ⟨S2x40000x16x16, .f32⟩
  | .hbm, ⟨6, _⟩ => ⟨S2x40000x16x3, .f32⟩
  | .hbm, ⟨7, _⟩ => ⟨S128x1072, .f32⟩
  | .hbm, ⟨8, _⟩ => ⟨S128, .f32⟩
  | .hbm, ⟨9, _⟩ => ⟨S2x40000x1x64, .f32⟩
  | .hbm, ⟨10, _⟩ => ⟨S2x40000x16x1, .i32⟩
  | .hbm, ⟨11, _⟩ => ⟨S_, .i32⟩
  | .hbm, ⟨12, _⟩ => ⟨S2x40000x16x1, .i32⟩
  | .hbm, ⟨13, _⟩ => ⟨S2x40000x16x1, .i1⟩
  | .hbm, ⟨14, _⟩ => ⟨S_, .i32⟩
  | .hbm, ⟨15, _⟩ => ⟨S2x40000x16x1, .i32⟩
  | .hbm, ⟨16, _⟩ => ⟨S2x40000x16x1, .i32⟩
  | .hbm, ⟨17, _⟩ => ⟨S2x40000x16x1, .i32⟩
  | .hbm, ⟨18, _⟩ => ⟨S2x40000x64, .f32⟩
  | .hbm, ⟨19, _⟩ => ⟨S1, .i32⟩
  | .hbm, ⟨20, _⟩ => ⟨S_, .i32⟩
  | .hbm, ⟨21, _⟩ => ⟨S2x40000x16x1, .i32⟩
  | .hbm, ⟨22, _⟩ => ⟨S2x40000x16x1, .i1⟩
  | .hbm, ⟨23, _⟩ => ⟨S1x1x1x1, .i32⟩
  | .hbm, ⟨24, _⟩ => ⟨S2x40000x16x1, .i32⟩
  | .hbm, ⟨25, _⟩ => ⟨S2x40000x16x1, .i1⟩
  | .hbm, ⟨26, _⟩ => ⟨S2x40000x16x1, .i1⟩
  | .hbm, ⟨27, _⟩ => ⟨S_, .i1⟩
  | .hbm, ⟨28, _⟩ => ⟨S2x40000x16, .i1⟩
  | .hbm, ⟨29, _⟩ => ⟨S2x40000x16x64, .f32⟩
  | .hbm, ⟨30, _⟩ => ⟨S2x40000x16x64, .i1⟩
  | .hbm, ⟨31, _⟩ => ⟨S_, .f32⟩
  | .hbm, ⟨32, _⟩ => ⟨S2x40000x16x64, .f32⟩
  | .hbm, ⟨33, _⟩ => ⟨S2x40000x16x64, .f32⟩
  | .hbm, ⟨34, _⟩ => ⟨S2x40000x16x67, .f32⟩
  | .hbm, ⟨35, _⟩ => ⟨S2x40000x67x16, .f32⟩
  | .hbm, ⟨36, _⟩ => ⟨S2x40000x1072, .f32⟩
  | .hbm, ⟨37, _⟩ => ⟨S2x40000x128, .f32⟩
  | .hbm, ⟨38, _⟩ => ⟨S1x1x128, .f32⟩
  | .hbm, ⟨39, _⟩ => ⟨S2x40000x128, .f32⟩
  | .hbm, ⟨40, _⟩ => ⟨S2x40000x128, .f32⟩
  | _, _ => ⟨S2x40000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩

abbrev nD : Nat := 1
abbrev τ : Topo := Topo.v7x

variable {F : FTy → Type} [FloatOps F]

class Facts₀ : Prop where
  bcast_S2x40000x64_S2x40000x1x64_0_1_3 : S2x40000x64.BroadcastsInDim S2x40000x1x64 (![0, 1, 3] : Fin 3 → Fin S2x40000x1x64.rank)
  bcast_S2x40000x16_S2x40000x16x1_0_1_2 : S2x40000x16.BroadcastsInDim S2x40000x16x1 (![0, 1, 2] : Fin 3 → Fin S2x40000x16x1.rank)
  bcast_S_S2x40000x16x1 : S_.BroadcastsInDim S2x40000x16x1 (![] : Fin 0 → Fin S2x40000x16x1.rank)
  shapeCasts_S2x40000x1x64_S2x40000x64 : S2x40000x1x64.ShapeCasts S2x40000x64
  bcast_S1_S1x1x1x1_3 : S1.BroadcastsInDim S1x1x1x1 (![3] : Fin 1 → Fin S1x1x1x1.rank)
  bcast_S1x1x1x1_S2x40000x16x1_0_1_2_3 : S1x1x1x1.BroadcastsInDim S2x40000x16x1 (![0, 1, 2, 3] : Fin 4 → Fin S2x40000x16x1.rank)
  reducesTo_S2x40000x16x1_S2x40000x16_d3 : S2x40000x16x1.ReducesTo [3] S2x40000x16
  h_S_ : 0 < S_.numel
  bcast_S2x40000x16_S2x40000x16x64_0_1_2 : S2x40000x16.BroadcastsInDim S2x40000x16x64 (![0, 1, 2] : Fin 3 → Fin S2x40000x16x64.rank)
  bcast_S_S2x40000x16x64 : S_.BroadcastsInDim S2x40000x16x64 (![] : Fin 0 → Fin S2x40000x16x64.rank)
  concatenates_S2x40000x16x64_S2x40000x16x3_S2x40000x16x67_d3 : Shape.Concatenates [S2x40000x16x64, S2x40000x16x3] S2x40000x16x67 3
  shapeCasts_S2x40000x67x16_S2x40000x1072 : S2x40000x67x16.ShapeCasts S2x40000x1072
  bcast_S128_S1x1x128_2 : S128.BroadcastsInDim S1x1x128 (![2] : Fin 1 → Fin S1x1x128.rank)
  bcast_S1x1x128_S2x40000x128_0_1_2 : S1x1x128.BroadcastsInDim S2x40000x128 (![0, 1, 2] : Fin 3 → Fin S2x40000x128.rank)
  gather_S2x40000x64_S2x40000x16x1_S2x40000x16x64_3_1_0_0_1_3_1164_wf : GatherDims.WF S2x40000x64 S2x40000x16x1 S2x40000x16x64 [3] [1] [0] [1] [0] 3 ![1, 1, 64]
  dot_S2x40000x16x67_S2x40000x16x16_S2x40000x67x16_2_2_3_3_01_01_wf : DotDims.WF S2x40000x16x67 S2x40000x16x16 S2x40000x67x16 [2] [2] [3] [3] [0, 1] [0, 1]
  dot_S2x40000x1072_S128x1072_S2x40000x128_2_1_01_0_n_n_wf : DotDims.WF S2x40000x1072 S128x1072 S2x40000x128 [2] [1] [0, 1] [0] [] []

variable [Facts₀]

def gather_S2x40000x64_S2x40000x16x1_S2x40000x16x64_3_1_0_0_1_3_1164 : GatherDims S2x40000x64 S2x40000x16x1 S2x40000x16x64 where
  offsetDims := [3]
  collapsedSliceDims := [1]
  operandBatchingDims := [0]
  startIndicesBatchingDims := [0]
  startIndexMap := [1]
  indexVectorDim := 3
  sliceSizes := ![1, 1, 64]
  wf := gather_S2x40000x64_S2x40000x16x1_S2x40000x16x64_3_1_0_0_1_3_1164_wf
def dot_S2x40000x16x67_S2x40000x16x16_S2x40000x67x16_2_2_3_3_01_01 : DotDims S2x40000x16x67 S2x40000x16x16 S2x40000x67x16 where
  lhsContracting := [2]
  rhsContracting := [2]
  lhsNonContracting := [3]
  rhsNonContracting := [3]
  lhsBatch := [0, 1]
  rhsBatch := [0, 1]
  wf := dot_S2x40000x16x67_S2x40000x16x16_S2x40000x67x16_2_2_3_3_01_01_wf
def dot_S2x40000x1072_S128x1072_S2x40000x128_2_1_01_0_n_n : DotDims S2x40000x1072 S128x1072 S2x40000x128 where
  lhsContracting := [2]
  rhsContracting := [1]
  lhsNonContracting := [0, 1]
  rhsNonContracting := [0]
  lhsBatch := []
  rhsBatch := []
  wf := dot_S2x40000x1072_S128x1072_S2x40000x128_2_1_01_0_n_n_wf

class Facts : Prop extends Facts₀ where

variable [Facts]
-- ==== Proof.Body.lean ====
/-
  What the kernel body stores, read at one entry of its output block.

  At a grid point the body holds one block of 400 points: their gathered features `x0` (400 × 16 × 64 behind a unit
  batch axis), their additional features `x5` (400 × 16 × 3), their weights `x2` (400 × 16 × 16), the whole linear weight
  `x13` (128 × 1072) and the bias `x16` (128).  It contracts the 16 neighbours twice, once for the gathered and once for
  the additional features, each product accumulated from zero, so each is the plain sum over the neighbours; stacks the
  two results along the feature axis (feature `c` of the stack comes from the first below 64 and from the second, at
  `c - 64`, from there on); lays the 67 × 16 entries of a point out as one row of 1072, entry `(f / 16, f % 16)` at
  position `f`; contracts that row against row `o` of the linear weight; and adds the bias of column `o`.  Changes of
  float format are the identity on the extended reals.  Stored at `(0, r, o)` is therefore
      (∑_f blockPconv (r, f / 16, f % 16) · x13 (o, f)) + x16 (o).
-/
import proofs.«128024_j8778913153257_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The point convolution of point `r` of a block at feature `c` and weight `j`: the 16 neighbours' gathered entries
    (below feature 64) or additional entries (from 64 on) against their weights. -/
def blockPconv (x0 : FVec Ideal S1x400x16x64 .bf16) (x5 : FVec Ideal S1x400x16x3 .f32) (x2 : FVec Ideal S1x400x16x16 .f32)
    (r : Fin 400) (c : Fin 67) (j : Fin 16) : EReal :=
  if h : c.val < 64 then ∑ k : Fin 16, x0 (ix4 (0 : Fin 1) r k ⟨c.val, h⟩) * x2 (ix4 (0 : Fin 1) r k j)
  else ∑ k : Fin 16, x5 (ix4 (0 : Fin 1) r k ⟨c.val - 64, by have := c.isLt; omega⟩) * x2 (ix4 (0 : Fin 1) r k j)

/-! The operand positions of the first contraction, gathered feature `c` of point `r` against weight `j` -/
theorem gat_l0 (i : S400x64x16.Idx) (q : dot_S400x16x64_S400x16x16_S400x64x16_1_1_2_2_0_0.contr.Idx) :
    (dot_S400x16x64_S400x16x16_S400x64x16_1_1_2_2_0_0.lhsIdx i q 0).val = (i 0).val := by
  unfold DotDims.lhsIdx
  rw [dif_pos (show (0 : Fin S400x16x64.rank) ∈ dot_S400x16x64_S400x16x16_S400x64x16_1_1_2_2_0_0.lhsBatch by decide)]
  rfl
theorem gat_l1 (i : S400x64x16.Idx) (q : dot_S400x16x64_S400x16x16_S400x64x16_1_1_2_2_0_0.contr.Idx) :
    (dot_S400x16x64_S400x16x16_S400x64x16_1_1_2_2_0_0.lhsIdx i q 1).val = (q ⟨0, by decide⟩).val :=
  dot_S400x16x64_S400x16x16_S400x64x16_1_1_2_2_0_0.lhsIdx_val_of_single rfl i q
theorem gat_l2 (i : S400x64x16.Idx) (q : dot_S400x16x64_S400x16x16_S400x64x16_1_1_2_2_0_0.contr.Idx) :
    (dot_S400x16x64_S400x16x16_S400x64x16_1_1_2_2_0_0.lhsIdx i q 2).val = (i 1).val := by
  unfold DotDims.lhsIdx
  rw [dif_neg (show ¬(2 : Fin S400x16x64.rank) ∈ dot_S400x16x64_S400x16x16_S400x64x16_1_1_2_2_0_0.lhsBatch by decide), dif_pos (show (2 : Fin S400x16x64.rank) ∈ dot_S400x16x64_S400x16x16_S400x64x16_1_1_2_2_0_0.lhsNonContracting by decide)]
  rfl
theorem gat_r0 (i : S400x64x16.Idx) (q : dot_S400x16x64_S400x16x16_S400x64x16_1_1_2_2_0_0.contr.Idx) :
    (dot_S400x16x64_S400x16x16_S400x64x16_1_1_2_2_0_0.rhsIdx i q 0).val = (i 0).val := by
  unfold DotDims.rhsIdx
  rw [dif_pos (show (0 : Fin S400x16x16.rank) ∈ dot_S400x16x64_S400x16x16_S400x64x16_1_1_2_2_0_0.rhsBatch by decide)]
  rfl
theorem gat_r1 (i : S400x64x16.Idx) (q : dot_S400x16x64_S400x16x16_S400x64x16_1_1_2_2_0_0.contr.Idx) :
    (dot_S400x16x64_S400x16x16_S400x64x16_1_1_2_2_0_0.rhsIdx i q 1).val = (q ⟨0, by decide⟩).val :=
  dot_S400x16x64_S400x16x16_S400x64x16_1_1_2_2_0_0.rhsIdx_val_of_single rfl i q
theorem gat_r2 (i : S400x64x16.Idx) (q : dot_S400x16x64_S400x16x16_S400x64x16_1_1_2_2_0_0.contr.Idx) :
    (dot_S400x16x64_S400x16x16_S400x64x16_1_1_2_2_0_0.rhsIdx i q 2).val = (i 2).val := by
  unfold DotDims.rhsIdx
  rw [dif_neg (show ¬(2 : Fin S400x16x16.rank) ∈ dot_S400x16x64_S400x16x16_S400x64x16_1_1_2_2_0_0.rhsBatch by decide), dif_pos (show (2 : Fin S400x16x16.rank) ∈ dot_S400x16x64_S400x16x16_S400x64x16_1_1_2_2_0_0.rhsNonContracting by decide)]
  rfl

/-- the first contraction, gathered feature `c` of point `r` against weight `j`, from a zero accumulator: the plain sum over the 16 neighbours. -/
theorem contract_gathered (l : FVec Ideal S400x16x64 .bf16) (w : FVec Ideal S400x16x16 .bf16) (r : Fin 400) (c : Fin 64) (j : Fin 16) :
    matmul dot_S400x16x64_S400x16x16_S400x64x16_1_1_2_2_0_0 none l w (constant _ .f32 0x00000000#32) (ix3 r c j)
      = ∑ k : Fin 16, l (ix3 r k c) * w (ix3 r k j) := by
  simp only [matmul]
  rw [Ideal.matmul_constant_zero_apply, ← Equiv.sum_comp (contrEquiv1 dot_S400x16x64_S400x16x16_S400x64x16_1_1_2_2_0_0 16 rfl rfl).symm]
  refine Finset.sum_congr rfl fun k _ => ?_
  have hk := contrEquiv1_symm_val dot_S400x16x64_S400x16x16_S400x64x16_1_1_2_2_0_0 16 rfl rfl k
  have el : dot_S400x16x64_S400x16x16_S400x64x16_1_1_2_2_0_0.lhsIdx (ix3 r c j) ((contrEquiv1 dot_S400x16x64_S400x16x16_S400x64x16_1_1_2_2_0_0 16 rfl rfl).symm k) = ix3 r k c := funext fun a => Fin.ext (by
    match a with
    | ⟨0, _⟩ => exact gat_l0 _ _
    | ⟨1, _⟩ => exact (gat_l1 _ _).trans hk
    | ⟨2, _⟩ => exact gat_l2 _ _)
  have er : dot_S400x16x64_S400x16x16_S400x64x16_1_1_2_2_0_0.rhsIdx (ix3 r c j) ((contrEquiv1 dot_S400x16x64_S400x16x16_S400x64x16_1_1_2_2_0_0 16 rfl rfl).symm k) = ix3 r k j := funext fun a => Fin.ext (by
    match a with
    | ⟨0, _⟩ => exact gat_r0 _ _
    | ⟨1, _⟩ => exact (gat_r1 _ _).trans hk
    | ⟨2, _⟩ => exact gat_r2 _ _)
  rw [el, er]

/-! The operand positions of the second contraction, additional feature `c` of point `r` against weight `j` -/
theorem add_l0 (i : S400x3x16.Idx) (q : dot_S400x16x3_S400x16x16_S400x3x16_1_1_2_2_0_0.contr.Idx) :
    (dot_S400x16x3_S400x16x16_S400x3x16_1_1_2_2_0_0.lhsIdx i q 0).val = (i 0).val := by
  unfold DotDims.lhsIdx
  rw [dif_pos (show (0 : Fin S400x16x3.rank) ∈ dot_S400x16x3_S400x16x16_S400x3x16_1_1_2_2_0_0.lhsBatch by decide)]
  rfl
theorem add_l1 (i : S400x3x16.Idx) (q : dot_S400x16x3_S400x16x16_S400x3x16_1_1_2_2_0_0.contr.Idx) :
    (dot_S400x16x3_S400x16x16_S400x3x16_1_1_2_2_0_0.lhsIdx i q 1).val = (q ⟨0, by decide⟩).val :=
  dot_S400x16x3_S400x16x16_S400x3x16_1_1_2_2_0_0.lhsIdx_val_of_single rfl i q
theorem add_l2 (i : S400x3x16.Idx) (q : dot_S400x16x3_S400x16x16_S400x3x16_1_1_2_2_0_0.contr.Idx) :
    (dot_S400x16x3_S400x16x16_S400x3x16_1_1_2_2_0_0.lhsIdx i q 2).val = (i 1).val := by
  unfold DotDims.lhsIdx
  rw [dif_neg (show ¬(2 : Fin S400x16x3.rank) ∈ dot_S400x16x3_S400x16x16_S400x3x16_1_1_2_2_0_0.lhsBatch by decide), dif_pos (show (2 : Fin S400x16x3.rank) ∈ dot_S400x16x3_S400x16x16_S400x3x16_1_1_2_2_0_0.lhsNonContracting by decide)]
  rfl
theorem add_r0 (i : S400x3x16.Idx) (q : dot_S400x16x3_S400x16x16_S400x3x16_1_1_2_2_0_0.contr.Idx) :
    (dot_S400x16x3_S400x16x16_S400x3x16_1_1_2_2_0_0.rhsIdx i q 0).val = (i 0).val := by
  unfold DotDims.rhsIdx
  rw [dif_pos (show (0 : Fin S400x16x16.rank) ∈ dot_S400x16x3_S400x16x16_S400x3x16_1_1_2_2_0_0.rhsBatch by decide)]
  rfl
theorem add_r1 (i : S400x3x16.Idx) (q : dot_S400x16x3_S400x16x16_S400x3x16_1_1_2_2_0_0.contr.Idx) :
    (dot_S400x16x3_S400x16x16_S400x3x16_1_1_2_2_0_0.rhsIdx i q 1).val = (q ⟨0, by decide⟩).val :=
  dot_S400x16x3_S400x16x16_S400x3x16_1_1_2_2_0_0.rhsIdx_val_of_single rfl i q
theorem add_r2 (i : S400x3x16.Idx) (q : dot_S400x16x3_S400x16x16_S400x3x16_1_1_2_2_0_0.contr.Idx) :
    (dot_S400x16x3_S400x16x16_S400x3x16_1_1_2_2_0_0.rhsIdx i q 2).val = (i 2).val := by
  unfold DotDims.rhsIdx
  rw [dif_neg (show ¬(2 : Fin S400x16x16.rank) ∈ dot_S400x16x3_S400x16x16_S400x3x16_1_1_2_2_0_0.rhsBatch by decide), dif_pos (show (2 : Fin S400x16x16.rank) ∈ dot_S400x16x3_S400x16x16_S400x3x16_1_1_2_2_0_0.rhsNonContracting by decide)]
  rfl

/-- the second contraction, additional feature `c` of point `r` against weight `j`, from a zero accumulator: the plain sum over the 16 neighbours. -/
theorem contract_additional (l : FVec Ideal S400x16x3 .bf16) (w : FVec Ideal S400x16x16 .bf16) (r : Fin 400) (c : Fin 3) (j : Fin 16) :
    matmul dot_S400x16x3_S400x16x16_S400x3x16_1_1_2_2_0_0 none l w (constant _ .f32 0x00000000#32) (ix3 r c j)
      = ∑ k : Fin 16, l (ix3 r k c) * w (ix3 r k j) := by
  simp only [matmul]
  rw [Ideal.matmul_constant_zero_apply, ← Equiv.sum_comp (contrEquiv1 dot_S400x16x3_S400x16x16_S400x3x16_1_1_2_2_0_0 16 rfl rfl).symm]
  refine Finset.sum_congr rfl fun k _ => ?_
  have hk := contrEquiv1_symm_val dot_S400x16x3_S400x16x16_S400x3x16_1_1_2_2_0_0 16 rfl rfl k
  have el : dot_S400x16x3_S400x16x16_S400x3x16_1_1_2_2_0_0.lhsIdx (ix3 r c j) ((contrEquiv1 dot_S400x16x3_S400x16x16_S400x3x16_1_1_2_2_0_0 16 rfl rfl).symm k) = ix3 r k c := funext fun a => Fin.ext (by
    match a with
    | ⟨0, _⟩ => exact add_l0 _ _
    | ⟨1, _⟩ => exact (add_l1 _ _).trans hk
    | ⟨2, _⟩ => exact add_l2 _ _)
  have er : dot_S400x16x3_S400x16x16_S400x3x16_1_1_2_2_0_0.rhsIdx (ix3 r c j) ((contrEquiv1 dot_S400x16x3_S400x16x16_S400x3x16_1_1_2_2_0_0 16 rfl rfl).symm k) = ix3 r k j := funext fun a => Fin.ext (by
    match a with
    | ⟨0, _⟩ => exact add_r0 _ _
    | ⟨1, _⟩ => exact (add_r1 _ _).trans hk
    | ⟨2, _⟩ => exact add_r2 _ _)
  rw [el, er]

/-! The operand positions of the linear layer's contraction -/
theorem lin_l0 (i : S400x128.Idx) (q : dot_S400x1072_S128x1072_S400x128_1_1_0_0_n_n.contr.Idx) :
    (dot_S400x1072_S128x1072_S400x128_1_1_0_0_n_n.lhsIdx i q 0).val = (i 0).val := by
  unfold DotDims.lhsIdx
  rw [dif_neg (show ¬(0 : Fin S400x1072.rank) ∈ dot_S400x1072_S128x1072_S400x128_1_1_0_0_n_n.lhsBatch by decide), dif_pos (show (0 : Fin S400x1072.rank) ∈ dot_S400x1072_S128x1072_S400x128_1_1_0_0_n_n.lhsNonContracting by decide)]
  rfl
theorem lin_l1 (i : S400x128.Idx) (q : dot_S400x1072_S128x1072_S400x128_1_1_0_0_n_n.contr.Idx) :
    (dot_S400x1072_S128x1072_S400x128_1_1_0_0_n_n.lhsIdx i q 1).val = (q ⟨0, by decide⟩).val :=
  dot_S400x1072_S128x1072_S400x128_1_1_0_0_n_n.lhsIdx_val_of_single rfl i q
theorem lin_r0 (i : S400x128.Idx) (q : dot_S400x1072_S128x1072_S400x128_1_1_0_0_n_n.contr.Idx) :
    (dot_S400x1072_S128x1072_S400x128_1_1_0_0_n_n.rhsIdx i q 0).val = (i 1).val := by
  unfold DotDims.rhsIdx
  rw [dif_neg (show ¬(0 : Fin S128x1072.rank) ∈ dot_S400x1072_S128x1072_S400x128_1_1_0_0_n_n.rhsBatch by decide), dif_pos (show (0 : Fin S128x1072.rank) ∈ dot_S400x1072_S128x1072_S400x128_1_1_0_0_n_n.rhsNonContracting by decide)]
  rfl
theorem lin_r1 (i : S400x128.Idx) (q : dot_S400x1072_S128x1072_S400x128_1_1_0_0_n_n.contr.Idx) :
    (dot_S400x1072_S128x1072_S400x128_1_1_0_0_n_n.rhsIdx i q 1).val = (q ⟨0, by decide⟩).val :=
  dot_S400x1072_S128x1072_S400x128_1_1_0_0_n_n.rhsIdx_val_of_single rfl i q

/-- The linear layer's contraction: row `r` of the flattened point convolutions against row `o` of the weight. -/
theorem contract_linear (l : FVec Ideal S400x1072 .bf16) (w : FVec Ideal S128x1072 .bf16) (r : Fin 400) (o : Fin 128) :
    matmul dot_S400x1072_S128x1072_S400x128_1_1_0_0_n_n none l w (constant _ .f32 0x00000000#32) (ix2 r o)
      = ∑ f : Fin 1072, l (ix2 r f) * w (ix2 o f) := by
  simp only [matmul]
  rw [Ideal.matmul_constant_zero_apply, ← Equiv.sum_comp (contrEquiv1 dot_S400x1072_S128x1072_S400x128_1_1_0_0_n_n 1072 rfl rfl).symm]
  refine Finset.sum_congr rfl fun f _ => ?_
  have hk := contrEquiv1_symm_val dot_S400x1072_S128x1072_S400x128_1_1_0_0_n_n 1072 rfl rfl f
  have el : dot_S400x1072_S128x1072_S400x128_1_1_0_0_n_n.lhsIdx (ix2 r o) ((contrEquiv1 dot_S400x1072_S128x1072_S400x128_1_1_0_0_n_n 1072 rfl rfl).symm f) = ix2 r f := funext fun a => Fin.ext (by
    match a with
    | ⟨0, _⟩ => exact lin_l0 _ _
    | ⟨1, _⟩ => exact (lin_l1 _ _).trans hk)
  have er : dot_S400x1072_S128x1072_S400x128_1_1_0_0_n_n.rhsIdx (ix2 r o) ((contrEquiv1 dot_S400x1072_S128x1072_S400x128_1_1_0_0_n_n 1072 rfl rfl).symm f) = ix2 o f := funext fun a => Fin.ext (by
    match a with
    | ⟨0, _⟩ => exact lin_r0 _ _
    | ⟨1, _⟩ => exact (lin_r1 _ _).trans hk)
  rw [el, er]

/-- The stack of the two contractions along the feature axis, at `(r, c, j)`. -/
theorem stacked_apply (p : FVec Ideal S400x64x16 .f32) (q : FVec Ideal S400x3x16 .f32) (r : Fin 400) (c : Fin 67) (j : Fin 16) :
    concatenate S400x67x16 1 [⟨S400x64x16, p⟩, ⟨S400x3x16, q⟩] concatenates_S400x64x16_S400x3x16_S400x67x16_d1 (ix3 r c j)
      = if h : c.val < 64 then p (ix3 r ⟨c.val, h⟩ j) else q (ix3 r ⟨c.val - 64, by have := c.isLt; omega⟩ j) := by
  by_cases h : c.val < 64
  · rw [dif_pos h]
    exact concatenate_pair_apply_left (s₁ := S400x64x16) (s₂ := S400x3x16) 1 p q _ (ix3 r c j) rfl (ix3 r ⟨c.val, h⟩ j) (fun a => by
      match a with
      | ⟨0, _⟩ => rfl
      | ⟨1, _⟩ => rfl
      | ⟨2, _⟩ => rfl)
  · rw [dif_neg h]
    exact concatenate_pair_apply_right (s₁ := S400x64x16) (s₂ := S400x3x16) 1 p q _ (ix3 r c j) rfl rfl (ix3 r ⟨c.val - 64, by have := c.isLt; omega⟩ j) (fun a ha => by
      match a, ha with
      | ⟨0, _⟩, _ => rfl
      | ⟨1, _⟩, ha => exact absurd rfl ha
      | ⟨2, _⟩, _ => rfl)
      (by show c.val - 64 + 64 = c.val; omega)

/-- The 67 × 16 entries of point `r` laid out as a row of 1072: position `f` holds entry `(f / 16, f % 16)`. -/
theorem flattened_apply (y : FVec Ideal S400x67x16 .f32) (r : Fin 400) (f : Fin 1072) :
    shapeCast S400x1072 y shapeCasts_S400x67x16_S400x1072 (ix2 r f)
      = y (ix3 r ⟨f.val / 16, by have := f.isLt; omega⟩ ⟨f.val % 16, by omega⟩) :=
  shapeCast_apply y shapeCasts_S400x67x16_S400x1072 (ix2 r f) _ (by
    rw [Shape.rowMajor_val_three, Shape.rowMajor_val_two]
    show (r.val * 67 + f.val / 16) * 16 + f.val % 16 = r.val * 1072 + f.val
    omega)

/-- A block behind a unit batch axis seen without it, at `(r, k, c)`. -/
theorem unbatched_apply {α : Type} {n : Nat} (x : (⟨4, ![1, 400, 16, n]⟩ : Shape).Idx → α) (h : (⟨4, ![1, 400, 16, n]⟩ : Shape).ShapeCasts ⟨3, ![400, 16, n]⟩)
    (r : Fin 400) (k : Fin 16) (c : Fin n) :
    shapeCast ⟨3, ![400, 16, n]⟩ x h (ix3 r k c) = x (ix4 (0 : Fin 1) r k c) :=
  shapeCast_apply x h (ix3 r k c) _ (by
    rw [Shape.rowMajor_val_four, Shape.rowMajor_val_three]
    show (((0 : Nat) * 400 + r.val) * 16 + k.val) * n + c.val = (r.val * 16 + k.val) * n + c.val
    rw [Nat.zero_mul, Nat.zero_add])

/-- The bias as a row spread over the 400 points, at `(r, o)`. -/
theorem bias_apply (b : FVec Ideal S128 .f32) (r : Fin 400) (o : Fin 128) :
    broadcastTo S400x128 (shapeCast S1x128 b shapeCasts_S128_S1x128) broadcasts_S1x128_S400x128 (ix2 r o) = b (ix1 o) := by
  refine (broadcastTo_apply _ broadcasts_S1x128_S400x128 (ix2 r o) (ix2 (0 : Fin 1) o) (fun a => ?_)).trans ?_
  · match a with
    | ⟨0, _⟩ => show (0 : Nat) = if (1 : Nat) = 1 then 0 else r.val; rw [if_pos rfl]
    | ⟨1, _⟩ => show o.val = if (128 : Nat) = 1 then 0 else o.val; rw [if_neg (by decide)]
  · exact shapeCast_apply b shapeCasts_S128_S1x128 (ix2 (0 : Fin 1) o) (ix1 o) (by
      rw [Shape.rowMajor_val_one, Shape.rowMajor_val_two]
      show o.val = (0 : Nat) * 128 + o.val
      omega)

end Cert.KernelIdeal.Body

end
-- ==== Proof.Payload.lean ====
/-
  The body's stored value at `(0, r, o)`, assembled from its pieces: the cast to a block with a unit batch axis reads
  `(r, o)`; there the value is the linear contraction plus the bias; the contraction's left factor at `f` is the
  flattened stack at `(r, f / 16, f % 16)`, which is the first neighbour contraction below feature 64 and the second
  from there on, each reading its block behind the unit batch axis.
-/
import proofs.«128024_j8778913153257_2_alg».proof.Proof.Body

noncomputable section

namespace Cert.KernelIdeal.Body

open Cert.KernelIdeal Cert.KernelIdeal.Gen Idealize.ShloMosaic Idealize.ShloMosaic.ValueIdx

/-- What the body stores at `(0, r, o)`: the block's point convolutions of point `r` against row `o` of the linear
    weight, plus the bias of column `o`. -/
theorem stored_apply (x0 : FVec Ideal S1x400x16x64 .bf16) (x2 : FVec Ideal S1x400x16x16 .f32) (x5 : FVec Ideal S1x400x16x3 .f32)
    (x13 : FVec Ideal S128x1072 .f32) (x16 : FVec Ideal S128 .f32) (r : Fin 400) (o : Fin 128) :
    k0_pay1 (F := Ideal) x0 x2 x5 x13 x16 (ix3 (0 : Fin 1) r o)
      = (∑ f : Fin 1072, blockPconv x0 x5 x2 r ⟨f.val / 16, by have := f.isLt; omega⟩ ⟨f.val % 16, by omega⟩ * x13 (ix2 o f))
          + x16 (ix1 o) := by
  unfold k0_pay1
  refine (shapeCast_apply _ shapeCasts_S400x128_S1x400x128 (ix3 (0 : Fin 1) r o) (ix2 r o) (by
    rw [Shape.rowMajor_val_two, Shape.rowMajor_val_three]
    show r.val * 128 + o.val = ((0 : Nat) * 400 + r.val) * 128 + o.val
    omega)).trans ?_
  show _ + _ = _ + _
  refine congrArg₂ (· + ·) ?_ (bias_apply x16 r o)
  refine (contract_linear _ _ r o).trans (Finset.sum_congr rfl fun f _ => ?_)
  have hf : f.val < 1072 := f.isLt
  refine congrArg₂ (· * ·) ?_ rfl
  refine (truncf_apply _ bitsLt_bf16_f32 (ix2 r f)).trans ?_
  refine (flattened_apply _ r f).trans ?_
  refine (stacked_apply _ _ r ⟨f.val / 16, by omega⟩ ⟨f.val % 16, by omega⟩).trans ?_
  unfold blockPconv
  by_cases h : f.val / 16 < 64
  · rw [dif_pos h, dif_pos h]
    refine (contract_gathered _ _ r ⟨f.val / 16, h⟩ ⟨f.val % 16, by omega⟩).trans (Finset.sum_congr rfl fun k _ => ?_)
    exact congrArg₂ (· * ·) (unbatched_apply x0 shapeCasts_S1x400x16x64_S400x16x64 r k _)
      (unbatched_apply x2 shapeCasts_S1x400x16x16_S400x16x16 r k _)
  · rw [dif_neg h, dif_neg h]
    refine (contract_additional _ _ r ⟨f.val / 16 - 64, by omega⟩ ⟨f.val % 16, by omega⟩).trans (Finset.sum_congr rfl fun k _ => ?_)
    exact congrArg₂ (· * ·) (unbatched_apply x5 shapeCasts_S1x400x16x3_S400x16x3 r k _)
      (unbatched_apply x2 shapeCasts_S1x400x16x16_S400x16x16 r k _)

end Cert.KernelIdeal.Body

end
-- ==== Proof.Spec.lean ====
/-
  The function both programs compute, over the extended reals.

  A point `(b, n)` has 16 neighbours `k`; each neighbour carries 67 features `c` — 64 gathered from the point
  table and 3 additional ones — and 16 weights `j`.  The point convolution contracts the neighbours,
      pconv (b, n, c, j) = ∑ₖ feat (b, n, k, c) · w (b, n, k, j),
  its 67 × 16 entries are laid out row-major as one vector of 1072 entries, `f = 16 c + j`, and the linear
  layer contracts that vector against row `o` of the weight matrix and adds the bias:
      out (b, n, o) = (∑_f pconv (b, n, f / 16, f % 16) · lw (o, f)) + bias (o).
  Whether the two feature families are joined before the neighbours are contracted or after does not matter:
  a feature index below 64 only ever meets gathered entries, one from 64 on only additional ones
  (`pconv_gathered`, `pconv_additional`).  No law beyond reading a sum term by term is used, so nothing here
  asks the entries to be finite.
-/
import Idealize.ShloMosaic.PureOps.Ideal
import Idealize.ShloMosaic.Lib.ValueIdx

noncomputable section

namespace Cert.PConv

open Idealize.ShloMosaic Idealize.ShloMosaic.ValueIdx

/-- Feature `c` of neighbour `k` of point `(b, n)`: the first 64 are the gathered ones, the last 3 the additional ones. -/
def feat (g : (⟨4, ![2, 40000, 16, 64]⟩ : Shape).Idx → EReal) (a : (⟨4, ![2, 40000, 16, 3]⟩ : Shape).Idx → EReal)
    (b : Fin 2) (n : Fin 40000) (k : Fin 16) (c : Fin 67) : EReal :=
  if h : c.val < 64 then g (ix4 b n k ⟨c.val, h⟩) else a (ix4 b n k ⟨c.val - 64, by have := c.isLt; omega⟩)

/-- The point convolution at `(b, n, c, j)`: the neighbours' features `c` weighted by their weights `j`, summed. -/
def pconv (g : (⟨4, ![2, 40000, 16, 64]⟩ : Shape).Idx → EReal) (a : (⟨4, ![2, 40000, 16, 3]⟩ : Shape).Idx → EReal)
    (w : (⟨4, ![2, 40000, 16, 16]⟩ : Shape).Idx → EReal) (b : Fin 2) (n : Fin 40000) (c : Fin 67) (j : Fin 16) : EReal :=
  ∑ k : Fin 16, feat g a b n k c * w (ix4 b n k j)

/-- The result at `(b, n, o)`: the 1072 entries of the point convolution against row `o` of the linear weight, plus the bias. -/
def out (g : (⟨4, ![2, 40000, 16, 64]⟩ : Shape).Idx → EReal) (a : (⟨4, ![2, 40000, 16, 3]⟩ : Shape).Idx → EReal)
    (w : (⟨4, ![2, 40000, 16, 16]⟩ : Shape).Idx → EReal) (lw : (⟨2, ![128, 1072]⟩ : Shape).Idx → EReal)
    (bias : (⟨1, ![128]⟩ : Shape).Idx → EReal) : (⟨3, ![2, 40000, 128]⟩ : Shape).Idx → EReal := fun i =>
  (∑ f : Fin 1072, pconv g a w (i 0) (i 1) ⟨f.val / 16, by have := f.isLt; omega⟩ ⟨f.val % 16, by omega⟩ * lw (ix2 (i 2) f))
    + bias (ix1 (i 2))

/-- The result read at explicit coordinates. -/
theorem out_apply (g : (⟨4, ![2, 40000, 16, 64]⟩ : Shape).Idx → EReal) (a : (⟨4, ![2, 40000, 16, 3]⟩ : Shape).Idx → EReal)
    (w : (⟨4, ![2, 40000, 16, 16]⟩ : Shape).Idx → EReal) (lw : (⟨2, ![128, 1072]⟩ : Shape).Idx → EReal)
    (bias : (⟨1, ![128]⟩ : Shape).Idx → EReal) (b : Fin 2) (n : Fin 40000) (o : Fin 128) :
    out g a w lw bias (ix3 b n o)
      = (∑ f : Fin 1072, pconv g a w b n ⟨f.val / 16, by have := f.isLt; omega⟩ ⟨f.val % 16, by omega⟩ * lw (ix2 o f)) + bias (ix1 o) :=
  rfl

/-- Below feature 64 the point convolution contracts gathered entries only. -/
theorem pconv_gathered (g : (⟨4, ![2, 40000, 16, 64]⟩ : Shape).Idx → EReal) (a : (⟨4, ![2, 40000, 16, 3]⟩ : Shape).Idx → EReal)
    (w : (⟨4, ![2, 40000, 16, 16]⟩ : Shape).Idx → EReal) (b : Fin 2) (n : Fin 40000) (c : Fin 67) (j : Fin 16) (h : c.val < 64) :
    pconv g a w b n c j = ∑ k : Fin 16, g (ix4 b n k ⟨c.val, h⟩) * w (ix4 b n k j) := by
  unfold pconv feat
  exact Finset.sum_congr rfl fun k _ => by rw [dif_pos h]

/-- From feature 64 on it contracts additional entries only. -/
theorem pconv_additional (g : (⟨4, ![2, 40000, 16, 64]⟩ : Shape).Idx → EReal) (a : (⟨4, ![2, 40000, 16, 3]⟩ : Shape).Idx → EReal)
    (w : (⟨4, ![2, 40000, 16, 16]⟩ : Shape).Idx → EReal) (b : Fin 2) (n : Fin 40000) (c : Fin 67) (j : Fin 16) (h : ¬ c.val < 64) :
    pconv g a w b n c j = ∑ k : Fin 16, a (ix4 b n k ⟨c.val - 64, by have := c.isLt; omega⟩) * w (ix4 b n k j) := by
  unfold pconv feat
  exact Finset.sum_congr rfl fun k _ => by rw [dif_neg h]

end Cert.PConv

end
-- ==== Proof.Point.lean ====
/-
  One grid point against the specification.

  Grid point `(b, q)` works on points `400 q … 400 q + 399` of batch `b`.  If its three moving blocks are those rows of
  the gathered features, the additional features and the weights, and its two resident blocks are the whole linear
  weight and bias, then what the body stores at `(0, r, o)` is the specification at `(b, 400 q + r, o)`: the block's
  point convolution of point `r` is the arrays' point convolution of point `400 q + r`, term by term.
-/
import proofs.«128024_j8778913153257_2_alg».proof.Proof.Payload
import proofs.«128024_j8778913153257_2_alg».proof.Proof.Spec

noncomputable section

namespace Cert.KernelIdeal.Body

open Cert.KernelIdeal Cert.KernelIdeal.Gen Idealize.ShloMosaic Idealize.ShloMosaic.ValueIdx

/-- The body's stored entry `(0, r, o)` at grid point `(b, q)` is the specification's entry `(b, 400 q + r, o)`. -/
theorem point_value (g : FVec Ideal S2x40000x16x64 .bf16) (a : FVec Ideal S2x40000x16x3 .f32) (w : FVec Ideal S2x40000x16x16 .f32)
    (lw : FVec Ideal S128x1072 .f32) (bias : FVec Ideal S128 .f32)
    (x0 : FVec Ideal S1x400x16x64 .bf16) (x2 : FVec Ideal S1x400x16x16 .f32) (x5 : FVec Ideal S1x400x16x3 .f32)
    (x13 : FVec Ideal S128x1072 .f32) (x16 : FVec Ideal S128 .f32) (b : Fin 2) (q : Fin 100)
    (h0 : ∀ (r : Fin 400) (k : Fin 16) (c : Fin 64),
      x0 (ix4 (0 : Fin 1) r k c) = g (ix4 b ⟨q.val * 400 + r.val, by have := q.isLt; have := r.isLt; omega⟩ k c))
    (h5 : ∀ (r : Fin 400) (k : Fin 16) (c : Fin 3),
      x5 (ix4 (0 : Fin 1) r k c) = a (ix4 b ⟨q.val * 400 + r.val, by have := q.isLt; have := r.isLt; omega⟩ k c))
    (h2 : ∀ (r : Fin 400) (k : Fin 16) (j : Fin 16),
      x2 (ix4 (0 : Fin 1) r k j) = w (ix4 b ⟨q.val * 400 + r.val, by have := q.isLt; have := r.isLt; omega⟩ k j))
    (h13 : x13 = lw) (h16 : x16 = bias) (r : Fin 400) (o : Fin 128) :
    k0_pay1 (F := Ideal) x0 x2 x5 x13 x16 (ix3 (0 : Fin 1) r o)
      = Cert.PConv.out g a w lw bias (ix3 b ⟨q.val * 400 + r.val, by have := q.isLt; have := r.isLt; omega⟩ o) := by
  subst h13 h16
  rw [stored_apply, Cert.PConv.out_apply]
  refine congrArg₂ (· + ·) (Finset.sum_congr rfl fun f _ => congrArg₂ (· * ·) ?_ rfl) rfl
  have hf : f.val < 1072 := f.isLt
  unfold blockPconv
  by_cases h : f.val / 16 < 64
  · rw [dif_pos h, Cert.PConv.pconv_gathered g a w _ _ ⟨f.val / 16, by omega⟩ _ h]
    exact Finset.sum_congr rfl fun k _ => by rw [h0, h2]
  · rw [dif_neg h, Cert.PConv.pconv_additional g a w _ _ ⟨f.val / 16, by omega⟩ _ h]
    exact Finset.sum_congr rfl fun k _ => by rw [h5, h2]

end Cert.KernelIdeal.Body

end
-- ==== Proof.Blocks.lean ====
/-
  From the grid's blocks to the whole result array.

  The grid has 200 points `t = 100 b + q`.  At point `t` the three moving windows hold rows `400 q … 400 q + 399` of
  batch `b` of their arrays, the two resident windows hold the whole linear weight and bias, and the output window's
  block is rows `400 q … 400 q + 399` of batch `b` of the result.  So what point `t` writes back is its block of the
  specification (`flushed_eq`, by the per-point lemma); every index `(b, n, o)` of the result lies in the block of
  point `100 b + n / 400` (`cover`); hence the result array ends holding the specification of the arrays as the region
  finds them (`final`).
-/
import proofs.«128024_j8778913153257_2_alg».proof.Proof.Gen.KernelIdeal.Value
import proofs.«128024_j8778913153257_2_alg».proof.Proof.Point
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- Where each window's block sits at point `t`: the moving windows and the output at batch `t / 100`, row block
    `t % 100`; the resident windows at the origin (decided over the 200 points). -/
theorem index_facts : ∀ t : Fin cfg0.N,
    (win0_0.index t (0 : Fin 4) = t.val / 100 ∧ win0_0.index t (1 : Fin 4) = t.val % 100 ∧ win0_0.index t (2 : Fin 4) = 0 ∧ win0_0.index t (3 : Fin 4) = 0)
    ∧ (win0_1.index t (0 : Fin 4) = t.val / 100 ∧ win0_1.index t (1 : Fin 4) = t.val % 100 ∧ win0_1.index t (2 : Fin 4) = 0 ∧ win0_1.index t (3 : Fin 4) = 0)
    ∧ (win0_2.index t (0 : Fin 4) = t.val / 100 ∧ win0_2.index t (1 : Fin 4) = t.val % 100 ∧ win0_2.index t (2 : Fin 4) = 0 ∧ win0_2.index t (3 : Fin 4) = 0)
    ∧ (win0_3.index t (0 : Fin 2) = 0 ∧ win0_3.index t (1 : Fin 2) = 0)
    ∧ win0_4.index t (0 : Fin 1) = 0
    ∧ (win0_5.index t (0 : Fin 3) = t.val / 100 ∧ win0_5.index t (1 : Fin 3) = t.val % 100 ∧ win0_5.index t (2 : Fin 3) = 0) :=
  (by decide +kernel : ∀ t : Fin grid0.N, _)

/-! Reading an array through one of the windows' blocks transports each element along the equation between the array's
    element type and the window's; both are the extended reals, and the transport is the identity. -/
theorem read_cast0 (c : Dev nD) (t : Fin cfg0.N) (A : Buf (Elt Ideal) ((c.tc : Thread nD τ).loc (Pipeline.arrRef spec0 (0 : Fin cfg0.W))))
    (i : S2x40000x16x64.Idx) :
    _root_.cast (congrArg (Elt Ideal) ((cfg0.win 0).blk t).view.elt_eq) (A i) = (A i : EReal) := rfl
theorem read_cast1 (c : Dev nD) (t : Fin cfg0.N) (A : Buf (Elt Ideal) ((c.tc : Thread nD τ).loc (Pipeline.arrRef spec0 (1 : Fin cfg0.W))))
    (i : S2x40000x16x3.Idx) :
    _root_.cast (congrArg (Elt Ideal) ((cfg0.win 1).blk t).view.elt_eq) (A i) = (A i : EReal) := rfl
theorem read_cast2 (c : Dev nD) (t : Fin cfg0.N) (A : Buf (Elt Ideal) ((c.tc : Thread nD τ).loc (Pipeline.arrRef spec0 (2 : Fin cfg0.W))))
    (i : S2x40000x16x16.Idx) :
    _root_.cast (congrArg (Elt Ideal) ((cfg0.win 2).blk t).view.elt_eq) (A i) = (A i : EReal) := rfl
theorem read_cast3 (c : Dev nD) (t : Fin cfg0.N) (A : Buf (Elt Ideal) ((c.tc : Thread nD τ).loc (Pipeline.arrRef spec0 (3 : Fin cfg0.W))))
    (i : S128x1072.Idx) :
    _root_.cast (congrArg (Elt Ideal) ((cfg0.win 3).blk t).view.elt_eq) (A i) = (A i : EReal) := rfl
theorem read_cast4 (c : Dev nD) (t : Fin cfg0.N) (A : Buf (Elt Ideal) ((c.tc : Thread nD τ).loc (Pipeline.arrRef spec0 (4 : Fin cfg0.W))))
    (i : S128.Idx) :
    _root_.cast (congrArg (Elt Ideal) ((cfg0.win 4).blk t).view.elt_eq) (A i) = (A i : EReal) := rfl
theorem read_cast5 (c : Dev nD) (t : Fin cfg0.N) (A : Buf (Elt Ideal) ((c.tc : Thread nD τ).loc (Pipeline.arrRef spec0 (5 : Fin cfg0.W))))
    (i : S2x40000x128.Idx) :
    _root_.cast (congrArg (Elt Ideal) ((cfg0.win 5).blk t).view.elt_eq) (A i) = (A i : EReal) := rfl

/-- The gathered features' block at point `t`, read at `x`, is the array the region finds at `j`, when `j` is `x` moved to batch `t / 100`, rows `400 (t % 100) …`. -/
theorem gathered_block (c : Dev nD) (t : Fin cfg0.N) (x : S1x400x16x64.Idx) (j : S2x40000x16x64.Idx)
    (h0 : (j 0).val = t.val / 100) (h1 : (j 1).val = t.val % 100 * 400 + (x 1).val) (h2 : (j 2).val = (x 2).val) (h3 : (j 3).val = (x 3).val) :
    (iblk m c 0 t : FVec Ideal S1x400x16x64 .f32) x = (V m c (Pipeline.arrRef spec0 (0 : Fin cfg0.W)) : S2x40000x16x64.Idx → EReal) j := by
  obtain ⟨e0, e1, e2, e3⟩ := (index_facts t).1
  unfold iblk
  rw [View.read_apply]
  generalize V m c (Pipeline.arrRef spec0 (0 : Fin cfg0.W)) = A
  refine (read_cast0 c t A (((cfg0.win 0).blk t).view.emb x)).trans ?_
  refine congrArg A (funext fun a => Fin.ext ?_)
  have hx0 : (x 0).val < 1 := (x 0).isLt
  match a with
  | ⟨0, _⟩ => show win0_0.index t (0 : Fin 4) * 1 + 1 * (x 0).val = (j 0).val; rw [e0, h0]; omega
  | ⟨1, _⟩ => show win0_0.index t (1 : Fin 4) * 400 + 1 * (x 1).val = (j 1).val; rw [e1, h1]; omega
  | ⟨2, _⟩ => show win0_0.index t (2 : Fin 4) * 16 + 1 * (x 2).val = (j 2).val; rw [e2, h2]; omega
  | ⟨3, _⟩ => show win0_0.index t (3 : Fin 4) * 64 + 1 * (x 3).val = (j 3).val; rw [e3, h3]; omega

/-- The additional features' block at point `t`, likewise. -/
theorem additional_block (c : Dev nD) (t : Fin cfg0.N) (x : S1x400x16x3.Idx) (j : S2x40000x16x3.Idx)
    (h0 : (j 0).val = t.val / 100) (h1 : (j 1).val = t.val % 100 * 400 + (x 1).val) (h2 : (j 2).val = (x 2).val) (h3 : (j 3).val = (x 3).val) :
    (iblk m c 1 t : FVec Ideal S1x400x16x3 .f32) x = (V m c (Pipeline.arrRef spec0 (1 : Fin cfg0.W)) : S2x40000x16x3.Idx → EReal) j := by
  obtain ⟨e0, e1, e2, e3⟩ := (index_facts t).2.1
  unfold iblk
  rw [View.read_apply]
  generalize V m c (Pipeline.arrRef spec0 (1 : Fin cfg0.W)) = A
  refine (read_cast1 c t A (((cfg0.win 1).blk t).view.emb x)).trans ?_
  refine congrArg A (funext fun a => Fin.ext ?_)
  have hx0 : (x 0).val < 1 := (x 0).isLt
  match a with
  | ⟨0, _⟩ => show win0_1.index t (0 : Fin 4) * 1 + 1 * (x 0).val = (j 0).val; rw [e0, h0]; omega
  | ⟨1, _⟩ => show win0_1.index t (1 : Fin 4) * 400 + 1 * (x 1).val = (j 1).val; rw [e1, h1]; omega
  | ⟨2, _⟩ => show win0_1.index t (2 : Fin 4) * 16 + 1 * (x 2).val = (j 2).val; rw [e2, h2]; omega
  | ⟨3, _⟩ => show win0_1.index t (3 : Fin 4) * 3 + 1 * (x 3).val = (j 3).val; rw [e3, h3]; omega

/-- The weights' block at point `t`, likewise. -/
theorem weights_block (c : Dev nD) (t : Fin cfg0.N) (x : S1x400x16x16.Idx) (j : S2x40000x16x16.Idx)
    (h0 : (j 0).val = t.val / 100) (h1 : (j 1).val = t.val % 100 * 400 + (x 1).val) (h2 : (j 2).val = (x 2).val) (h3 : (j 3).val = (x 3).val) :
    (iblk m c 2 t : FVec Ideal S1x400x16x16 .f32) x = (V m c (Pipeline.arrRef spec0 (2 : Fin cfg0.W)) : S2x40000x16x16.Idx → EReal) j := by
  obtain ⟨e0, e1, e2, e3⟩ := (index_facts t).2.2.1
  unfold iblk
  rw [View.read_apply]
  generalize V m c (Pipeline.arrRef spec0 (2 : Fin cfg0.W)) = A
  refine (read_cast2 c t A (((cfg0.win 2).blk t).view.emb x)).trans ?_
  refine congrArg A (funext fun a => Fin.ext ?_)
  have hx0 : (x 0).val < 1 := (x 0).isLt
  match a with
  | ⟨0, _⟩ => show win0_2.index t (0 : Fin 4) * 1 + 1 * (x 0).val = (j 0).val; rw [e0, h0]; omega
  | ⟨1, _⟩ => show win0_2.index t (1 : Fin 4) * 400 + 1 * (x 1).val = (j 1).val; rw [e1, h1]; omega
  | ⟨2, _⟩ => show win0_2.index t (2 : Fin 4) * 16 + 1 * (x 2).val = (j 2).val; rw [e2, h2]; omega
  | ⟨3, _⟩ => show win0_2.index t (3 : Fin 4) * 16 + 1 * (x 3).val = (j 3).val; rw [e3, h3]; omega

/-- The linear weight's block is the whole matrix at every point. -/
theorem linear_block (c : Dev nD) (t : Fin cfg0.N) :
    (iblk m c 3 t : FVec Ideal S128x1072 .f32) = (V m c (Pipeline.arrRef spec0 (3 : Fin cfg0.W)) : S128x1072.Idx → EReal) := by
  obtain ⟨e0, e1⟩ := (index_facts t).2.2.2.1
  funext x
  unfold iblk
  rw [View.read_apply]
  generalize V m c (Pipeline.arrRef spec0 (3 : Fin cfg0.W)) = A
  refine (read_cast3 c t A (((cfg0.win 3).blk t).view.emb x)).trans ?_
  refine congrArg A (funext fun a => Fin.ext ?_)
  match a with
  | ⟨0, _⟩ => show win0_3.index t (0 : Fin 2) * 128 + 1 * (x 0).val = (x 0).val; rw [e0]; omega
  | ⟨1, _⟩ => show win0_3.index t (1 : Fin 2) * 1072 + 1 * (x 1).val = (x 1).val; rw [e1]; omega

/-- The bias's block is the whole vector at every point. -/
theorem bias_block (c : Dev nD) (t : Fin cfg0.N) :
    (iblk m c 4 t : FVec Ideal S128 .f32) = (V m c (Pipeline.arrRef spec0 (4 : Fin cfg0.W)) : S128.Idx → EReal) := by
  have e0 := (index_facts t).2.2.2.2.1
  funext x
  unfold iblk
  rw [View.read_apply]
  generalize V m c (Pipeline.arrRef spec0 (4 : Fin cfg0.W)) = A
  refine (read_cast4 c t A (((cfg0.win 4).blk t).view.emb x)).trans ?_
  refine congrArg A (funext fun a => Fin.ext ?_)
  match a with
  | ⟨0, _⟩ => show win0_4.index t (0 : Fin 1) * 128 + 1 * (x 0).val = (x 0).val; rw [e0]; omega

/-- The specification of the arrays as the region finds them (each window's array, in the windows' order: the
    gathered features, the additional features, the weights, the linear weight, the bias). -/
def result (c : Dev nD) : S2x40000x128.Idx → EReal :=
  Cert.PConv.out (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W)))

/-- The output window is not clipped: what a point writes back is the whole staging buffer. -/
theorem cut_apply (t : Fin cfg0.N) (X : S1x400x128.Idx → EReal) (y : ((cfg0.win 5).xblock (grid0.coords t)).Idx) :
    (cfg0.win 5).cut (grid0.coords t) X y = X y := rfl

/-- WHAT POINT `t` WRITES BACK is its block of the specification. -/
theorem flushed_eq (c : Dev nD) (t : Fin cfg0.N) :
    (dats m 0 c).flushed 5 t = ((cfg0.win 5).blk t).view.read (Elt Ideal) (result m c) := by
  rw [Cert.KernelIdeal.Value.flushed5]
  unfold out0_5 result
  rw [View.canon_unit_zero zero3]
  simp only [View.ld_unit_zero (S := S1x400x16x64) zero4, View.ld_unit_zero (S := S1x400x16x16) zero4,
    View.ld_unit_zero (S := S1x400x16x3) zero4, View.ld_unit_zero (S := S128x1072) zero2, View.ld_unit_zero (S := S128) zero1]
  obtain ⟨e0, e1, e2⟩ := (index_facts t).2.2.2.2.2
  have hN : cfg0.N = 200 := N_0
  have ht : t.val < cfg0.N := t.isLt
  have h0 := fun r k e => gathered_block m c t (ix4 (0 : Fin 1) r k e) (ix4 (⟨t.val / 100, by omega⟩ : Fin 2) (⟨t.val % 100 * 400 + r.val, by have := r.isLt; omega⟩ : Fin 40000) k e) rfl rfl rfl rfl
  have h5 := fun r k e => additional_block m c t (ix4 (0 : Fin 1) r k e) (ix4 (⟨t.val / 100, by omega⟩ : Fin 2) (⟨t.val % 100 * 400 + r.val, by have := r.isLt; omega⟩ : Fin 40000) k e) rfl rfl rfl rfl
  have h2 := fun r k e => weights_block m c t (ix4 (0 : Fin 1) r k e) (ix4 (⟨t.val / 100, by omega⟩ : Fin 2) (⟨t.val % 100 * 400 + r.val, by have := r.isLt; omega⟩ : Fin 40000) k e) rfl rfl rfl rfl
  have h13 := linear_block m c t
  have h16 := bias_block m c t
  -- from here on the arrays and the blocks are plain variables
  generalize V m c (Pipeline.arrRef spec0 (0 : Fin cfg0.W)) = g at h0 ⊢
  generalize V m c (Pipeline.arrRef spec0 (1 : Fin cfg0.W)) = a at h5 ⊢
  generalize V m c (Pipeline.arrRef spec0 (2 : Fin cfg0.W)) = w at h2 ⊢
  generalize V m c (Pipeline.arrRef spec0 (3 : Fin cfg0.W)) = lw at h13 ⊢
  generalize V m c (Pipeline.arrRef spec0 (4 : Fin cfg0.W)) = bias at h16 ⊢
  generalize iblk m c 0 t = x0 at h0 ⊢
  generalize iblk m c 1 t = x1 at h5 ⊢
  generalize iblk m c 2 t = x2 at h2 ⊢
  generalize iblk m c 3 t = x3 at h13 ⊢
  generalize iblk m c 4 t = x4 at h16 ⊢
  funext y
  have hy0 : (y 0).val < 1 := (y 0).isLt
  have hy1 : (y 1).val < 400 := (y 1).isLt
  have hy2 : (y 2).val < 128 := (y 2).isLt
  refine (cut_apply t (k0_pay1 (F := Ideal) x0 x2 x1 x3 x4) y).trans ?_
  rw [View.read_apply]
  refine Eq.trans ?_ (read_cast5 c t (Cert.PConv.out g a w lw bias) (((cfg0.win 5).blk t).view.emb y)).symm
  have hy : y = ix3 (0 : Fin 1) (⟨(y 1).val, hy1⟩ : Fin 400) (⟨(y 2).val, hy2⟩ : Fin 128) := funext fun a => Fin.ext (by
    match a with
    | ⟨0, _⟩ => show (y 0).val = 0; omega
    | ⟨1, _⟩ => rfl
    | ⟨2, _⟩ => rfl)
  have he : ((cfg0.win 5).blk t).view.emb y
      = ix3 (⟨t.val / 100, by omega⟩ : Fin 2) (⟨t.val % 100 * 400 + (y 1).val, by omega⟩ : Fin 40000) (⟨(y 2).val, hy2⟩ : Fin 128) :=
    funext fun a => Fin.ext (by
      match a with
      | ⟨0, _⟩ => show win0_5.index t (0 : Fin 3) * 1 + 1 * (y 0).val = t.val / 100; rw [e0]; omega
      | ⟨1, _⟩ => show win0_5.index t (1 : Fin 3) * 400 + 1 * (y 1).val = t.val % 100 * 400 + (y 1).val; rw [e1]; omega
      | ⟨2, _⟩ => show win0_5.index t (2 : Fin 3) * 128 + 1 * (y 2).val = (y 2).val; rw [e2]; omega)
  refine (congrArg (k0_pay1 (F := Ideal) x0 x2 x1 x3 x4) hy).trans ?_
  refine Eq.trans ?_ (congrArg (Cert.PConv.out g a w lw bias) he).symm
  exact Cert.KernelIdeal.Body.point_value g a w lw bias x0 x2 x1 x3 x4 ⟨t.val / 100, by omega⟩ ⟨t.val % 100, by omega⟩
    h0 h5 h2 h13 h16 ⟨(y 1).val, hy1⟩ ⟨(y 2).val, hy2⟩

/-- An index of the result is in point `t`'s block iff each coordinate is in the block's range on its axis. -/
theorem mem_blk (t : Fin cfg0.N) (i : S2x40000x128.Idx) :
    i ∈ ((cfg0.win 5).blk t).view.set ↔ ∀ a : Fin 3, win0_5.index t a * S1x400x128.size a ≤ (i a).val ∧ (i a).val < win0_5.index t a * S1x400x128.size a + S1x400x128.size a := by
  show i ∈ ((View.whole main_v4).slice (win0_5.rect t)).set ↔ _
  rw [View.set_slice_whole, Rect.mem_set_unit]
  exact Iff.rfl

/-- Every index `(b, n, o)` of the result is in the block of point `100 b + n / 400`. -/
theorem cover (i : S2x40000x128.Idx) : ∃ t : Fin cfg0.N, (cfg0.win 5).flush t = true ∧ i ∈ ((cfg0.win 5).blk t).view.set := by
  have h0 : (i 0).val < 2 := (i 0).isLt
  have h1 : (i 1).val < 40000 := (i 1).isLt
  have h2 : (i 2).val < 128 := (i 2).isLt
  have hN : cfg0.N = 200 := N_0
  obtain ⟨t, ht⟩ : ∃ t : Fin cfg0.N, t.val = (i 0).val * 100 + (i 1).val / 400 := ⟨⟨(i 0).val * 100 + (i 1).val / 400, by omega⟩, rfl⟩
  obtain ⟨e0, e1, e2⟩ := (index_facts t).2.2.2.2.2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 400 ≤ (i 1).val ∧ (i 1).val < win0_5.index t (1 : Fin 3) * 400 + 400; rw [e1]; omega
  | ⟨2, _⟩ => show win0_5.index t (2 : Fin 3) * 128 ≤ (i 2).val ∧ (i 2).val < win0_5.index t (2 : Fin 3) * 128 + 128; rw [e2]; omega

/-- THE RESULT ARRAY after the run is the specification of the arrays as the region finds them. -/
theorem final (c : Dev nD) : (dats m 0 c).arrAt 5 cfg0.N = result m c :=
  (dats m 0 c).arrAt_eq_of_cover 5 (result m c) (fun t _ => flushed_eq m c t) cover

end Cert.KernelIdeal.Blocks

end
-- ==== Proof.Gathered.lean ====
/-
  The gathered features as the kernel's region finds them.

  Before its one region the kernel's program gathers the neighbours' rows of the point table on the host, by the very
  operations the reference gathers them with (a row index below zero is shifted up by the table's length; a row index
  outside the table yields the not-a-number pattern), and then changes the float format, which is the identity on the
  extended reals.  So the array the first window stages is the reference's gathered array, as a function of the point
  table and the neighbour indices.  Nothing about the gather is opened: the two programs' terms are the same term.
-/
import proofs.«128024_j8778913153257_2_alg».proof.Proof.Gen.KernelIdeal.Frame
import proofs.«128024_j8778913153257_2_alg».proof.Proof.RefRead
import Idealize.ShloMosaic.Lib.StableHlo.Run

noncomputable section

namespace Cert.KernelIdeal.Gathered

open Cert.KernelIdeal Cert.KernelIdeal.Gen Idealize.ShloMosaic Idealize.ShloMosaic.TcCoe Idealize.SL.Sem Idealize.ShloMosaic.StableHlo

section AnyValues
variable {F : FTy → Type} [FloatOps F]

/-- Moving a value to a typed reference's buffer type and back is the identity. -/
theorem ofBuf_toBuf {T : BufTy} (x : TRef sig T) (v : T.Contents (Elt F)) : x.ofBuf (x.toBuf v) = v := by
  simp [TRef.ofBuf, TRef.toBuf]
/-- The three moves that have no partner are identities: the reference's type is the value's. -/
theorem ofBuf_main_v1 (p1 : main_v1.ty = ⟨S2x40000x16x1, .i32⟩) (p2 : main_v1.space ≠ .host) (p3 : main_v1.isScoped = false)
    (X : main_v1.ty.Contents (Elt F)) : (TRef.of main_v1 p1 p2 p3).ofBuf X = X := rfl
theorem ofBuf_main_call0_v5 (p1 : main_call0_v5.ty = ⟨S2x40000x64, .f32⟩) (p2 : main_call0_v5.space ≠ .host) (p3 : main_call0_v5.isScoped = false)
    (X : main_call0_v5.ty.Contents (Elt F)) : (TRef.of main_call0_v5 p1 p2 p3).ofBuf X = X := rfl
theorem toBuf_main_v2 (p1 : main_v2.ty = ⟨S2x40000x16x64, .f32⟩) (p2 : main_v2.space ≠ .host) (p3 : main_v2.isScoped = false)
    (X : (⟨S2x40000x16x64, .f32⟩ : BufTy).Contents (Elt F)) : (TRef.of main_v2 p1 p2 p3).toBuf X = X := rfl

set_option maxHeartbeats 2000000 in
/-- At any float values: the first window's array at region entry is the reference's gathered array of the point table
    and the neighbour indices, in the narrower float format. -/
theorem entry_any (m : (ℓ : Loc nD τ sig) → Buf (Elt F) ℓ) (c : Dev nD) :
    V m c main_v3 = truncf .bf16 (Cert.ReferenceIdeal.ReadP.val_main_v2 (F := F) (m ((c : Thread nD τ).loc main_arg0))
      (m ((c : Thread nD τ).loc main_arg1))) bitsLt_bf16_f32 := by
  dsimp only [V]
  simp only [hostOps0, hostOps0_1, hostOps0_2, List.flatten_cons, List.flatten_nil, List.append_nil, List.cons_append, List.nil_append]
  after_results_simp
  simp only [↓ofBuf_toBuf]
  simp only [ofBuf_main_v1, ofBuf_main_call0_v5, toBuf_main_v2]
  rfl

end AnyValues

/-- Over the extended reals the change of float format is the identity. -/
theorem truncf_id {s : Shape} (X : FVec Ideal s .f32) (h : FTy.bits .bf16 < FTy.bits .f32) :
    (truncf .bf16 X h : FVec Ideal s .bf16) = X := rfl

/-- The first window's array at region entry, over the extended reals, is the reference's gathered array. -/
theorem entry (m : (ℓ : Loc nD τ sig) → Buf (Elt Ideal) ℓ) (c : Dev nD) :
    (V m c main_v3 : S2x40000x16x64.Idx → EReal)
      = Cert.ReferenceIdeal.ReadP.val_main_v2 (F := Ideal) (m ((c : Thread nD τ).loc main_arg0)) (m ((c : Thread nD τ).loc main_arg1)) :=
  (entry_any (F := Ideal) m c).trans (truncf_id _ _)

end Cert.KernelIdeal.Gathered

end
-- ==== Proof.RefSide.lean ====
/-
  The reference's result, read index by index, is the specification `Cert.PConv.out` of the gathered
  features and the argument arrays.

  The reference joins the gathered and the additional features along the feature axis first, so its joined array at
  `(b, n, k, c)` is `feat`: the gathered entry for `c < 64`, the additional entry `c - 64` from there on.  Its batched
  contraction over the neighbours is then `pconv` at `(b, n, c, j)`; flattening `(c, j)` to `f = 16 c + j` puts entry
  `(f / 16, f % 16)` at position `f`; the second contraction runs over `f` against row `o` of the linear weight, and
  the bias of column `o` is added.
-/
import proofs.«128024_j8778913153257_2_alg».proof.Proof.RefRead
import proofs.«128024_j8778913153257_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx

/-- The joined feature array at `(b, n, k, c)` is feature `c` of neighbour `k`: gathered below 64, additional from 64 on. -/
theorem joined_apply (x0 : (⟨S2x40000x64, .f32⟩ : BufTy).Contents (Elt Ideal)) (x1 : (⟨S2x40000x16, .i32⟩ : BufTy).Contents (Elt Ideal))
    (x6 : (⟨S2x40000x16x3, .f32⟩ : BufTy).Contents (Elt Ideal)) (b : Fin 2) (n : Fin 40000) (k : Fin 16) (c : Fin 67) :
    val_main_v3 (F := Ideal) x0 x1 x6 (ix4 b n k c) = Cert.PConv.feat (val_main_v2 (F := Ideal) x0 x1) x6 b n k c := by
  unfold val_main_v3 Cert.PConv.feat
  by_cases h : c.val < 64
  · rw [dif_pos h]
    exact concatenate_pair_apply_left (s₁ := S2x40000x16x64) (s₂ := S2x40000x16x3) 3 _ x6 _ (ix4 b n k c) rfl (ix4 b n k ⟨c.val, h⟩) (fun a => by
      match a with
      | ⟨0, _⟩ => rfl
      | ⟨1, _⟩ => rfl
      | ⟨2, _⟩ => rfl
      | ⟨3, _⟩ => rfl)
  · rw [dif_neg h]
    exact concatenate_pair_apply_right (s₁ := S2x40000x16x64) (s₂ := S2x40000x16x3) 3 _ x6 _ (ix4 b n k c) rfl rfl (ix4 b n k ⟨c.val - 64, by have := c.isLt; omega⟩) (fun a ha => by
      match a, ha with
      | ⟨0, _⟩, _ => rfl
      | ⟨1, _⟩, _ => rfl
      | ⟨2, _⟩, _ => rfl
      | ⟨3, _⟩, ha => exact absurd rfl ha)
      (by show c.val - 64 + 64 = c.val; omega)

/-- The reference's result is the specification of the gathered features, the additional features, the weights, the
    linear weight and the bias. -/
theorem result_eq (x0 : (⟨S2x40000x64, .f32⟩ : BufTy).Contents (Elt Ideal)) (x1 : (⟨S2x40000x16, .i32⟩ : BufTy).Contents (Elt Ideal))
    (x5 : (⟨S2x40000x16x16, .f32⟩ : BufTy).Contents (Elt Ideal)) (x6 : (⟨S2x40000x16x3, .f32⟩ : BufTy).Contents (Elt Ideal))
    (x7 : (⟨S128x1072, .f32⟩ : BufTy).Contents (Elt Ideal)) (x8 : (⟨S128, .f32⟩ : BufTy).Contents (Elt Ideal)) :
    val_main_v9 (F := Ideal) x0 x1 x5 x6 x7 x8 = Cert.PConv.out (val_main_v2 (F := Ideal) x0 x1) x6 x5 x7 x8 := by
  funext i
  obtain ⟨b, n, o, rfl⟩ : ∃ (b : Fin 2) (n : Fin 40000) (o : Fin 128), i = ix3 b n o := ⟨i 0, i 1, i 2, eq_ix3 i⟩
  have h0 : b.val < 2 := b.isLt
  have h1 : n.val < 40000 := n.isLt
  rw [val_main_v9_apply, val_main_v6_apply, val_main_v8_apply, val_main_v7_apply, Cert.PConv.out_apply]
  show _ + _ = _ + _
  have hb : idx_main_v7 (idx_main_v8 (ix3 b n o)) = ix1 o := funext fun a => Fin.ext (by
    match a with
    | ⟨0, _⟩ => rfl)
  rw [hb]
  refine congrArg (· + x8 (ix1 o)) (Finset.sum_congr rfl fun f _ => ?_)
  have hf : f.val < 1072 := f.isLt
  have hr : ridx_main_v6 (ix3 b n o) f = ix2 o f := funext fun a => Fin.ext (by
    match a with
    | ⟨0, _⟩ => rfl
    | ⟨1, _⟩ => rfl)
  rw [hr, val_main_v5_apply, val_main_v4_apply]
  refine congrArg (· * x7 (ix2 o f)) ?_
  unfold Cert.PConv.pconv
  refine Finset.sum_congr rfl fun k _ => ?_
  have hl : lidx_main_v4 (idx_main_v5 (lidx_main_v6 (ix3 b n o) f)) k = ix4 b n k ⟨f.val / 16, by omega⟩ := funext fun a => Fin.ext (by
    match a with
    | ⟨0, _⟩ => show ((b.val * 40000 + n.val) * 1072 + f.val) / 42880000 = b.val; omega
    | ⟨1, _⟩ => show ((b.val * 40000 + n.val) * 1072 + f.val) / 1072 % 40000 = n.val; omega
    | ⟨2, _⟩ => rfl
    | ⟨3, _⟩ => show ((b.val * 40000 + n.val) * 1072 + f.val) / 16 % 67 = f.val / 16; omega)
  have hw : ridx_main_v4 (idx_main_v5 (lidx_main_v6 (ix3 b n o) f)) k = ix4 b n k ⟨f.val % 16, by omega⟩ := funext fun a => Fin.ext (by
    match a with
    | ⟨0, _⟩ => show ((b.val * 40000 + n.val) * 1072 + f.val) / 42880000 = b.val; omega
    | ⟨1, _⟩ => show ((b.val * 40000 + n.val) * 1072 + f.val) / 1072 % 40000 = n.val; omega
    | ⟨2, _⟩ => rfl
    | ⟨3, _⟩ => show ((b.val * 40000 + n.val) * 1072 + f.val) % 16 = f.val % 16; omega)
  rw [hl, hw, joined_apply]

end Cert.ReferenceIdeal.RefValue

end
-- ==== Proof.Claims.lean ====
/-
  The claims.  The kernel's run ends with the result array at the specification of the gathered features and the
  argument arrays (the blocks-to-array step, with the region-entry contents read back to the arguments); the reference's
  run ends with its result at the same specification (its stages read index by index); the two runs start from
  memories that agree on the arguments, so the results are equal.  The kernel's two frames are the generated ones, the
  reference's frame is its run with the result dropped, and the idealization rewrote nothing.
-/
import proofs.«128024_j8778913153257_2_alg».proof.Defs
import proofs.«128024_j8778913153257_2_alg».proof.Proof.Gen.Kernel.Frame
import proofs.«128024_j8778913153257_2_alg».proof.Proof.Gen.Pre_finite_inputs
import proofs.«128024_j8778913153257_2_alg».proof.Proof.Blocks
import proofs.«128024_j8778913153257_2_alg».proof.Proof.Gathered
import proofs.«128024_j8778913153257_2_alg».proof.Proof.RefSide

noncomputable section

open Idealize.ShloMosaic Idealize.ShloMosaic.TcCoe Idealize.SL.Sem

namespace Cert.Proof.Claims

/-- The common value of the two results, on device `c`: the specification of the gathered features and the arguments. -/
abbrev value (m : (ℓ : Loc Cert.KernelIdeal.nD Cert.KernelIdeal.τ Cert.KernelIdeal.sig) → Buf (Elt Ideal) ℓ) (c : Dev Cert.KernelIdeal.nD) :
    Cert.KernelIdeal.S2x40000x128.Idx → EReal :=
  Cert.PConv.out
    (Cert.ReferenceIdeal.ReadP.val_main_v2 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)))
    (m ((c : Thread Cert.KernelIdeal.nD Cert.KernelIdeal.τ).loc Cert.KernelIdeal.main_arg6))
    (m ((c : Thread Cert.KernelIdeal.nD Cert.KernelIdeal.τ).loc Cert.KernelIdeal.main_arg5))
    (m ((c : Thread Cert.KernelIdeal.nD Cert.KernelIdeal.τ).loc Cert.KernelIdeal.main_arg7))
    (m ((c : Thread Cert.KernelIdeal.nD Cert.KernelIdeal.τ).loc Cert.KernelIdeal.main_arg8))

section Kernel
open Cert.KernelIdeal Cert.KernelIdeal.Gen

/-- After the run the kernel's result array is `value`: the specification of the region-entry arrays, each read back to
    the arguments (the staged arguments are as launched; the gathered window's array is the reference's gathered array). -/
theorem result_eq (m : (ℓ : Loc nD τ sig) → Buf (Elt Ideal) ℓ) (c : Dev nD) : (dats m 0 c).arrAt 5 cfg0.N = value m c := by
  have e0 : V m c (Pipeline.arrRef spec0 (0 : Fin cfg0.W))
      = Cert.ReferenceIdeal.ReadP.val_main_v2 (F := Ideal) (m ((c : Thread nD τ).loc main_arg0)) (m ((c : Thread nD τ).loc main_arg1)) :=
    Cert.KernelIdeal.Gathered.entry m c
  have e1 : V m c (Pipeline.arrRef spec0 (1 : Fin cfg0.W)) = m ((c : Thread nD τ).loc main_arg6) := V_main_arg6 m c
  have e2 : V m c (Pipeline.arrRef spec0 (2 : Fin cfg0.W)) = m ((c : Thread nD τ).loc main_arg5) := V_main_arg5 m c
  have e3 : V m c (Pipeline.arrRef spec0 (3 : Fin cfg0.W)) = m ((c : Thread nD τ).loc main_arg7) := V_main_arg7 m c
  have e4 : V m c (Pipeline.arrRef spec0 (4 : Fin cfg0.W)) = m ((c : Thread nD τ).loc main_arg8) := V_main_arg8 m c
  rw [Cert.KernelIdeal.Blocks.final m c]
  unfold Cert.KernelIdeal.Blocks.result
  rw [e0, e1, e2, e3, e4]

end Kernel

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at `value` of arguments that agree. -/
theorem algebraic : Cert.algebraic_KernelIdeal_ReferenceIdeal := by
  intro m ρ m' ρ' _ hagree
  refine ⟨fun c => value m c, ?_, ?_⟩
  · exact (θ_run Cert.KernelIdeal.defs _ _).mono (fun r h c => ⟨(h c).1.trans (result_eq m c), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    obtain ⟨a0, a1, -, -, -, a5, a6, a7, a8⟩ := hagree c
    rw [Cert.ReferenceIdeal.ReadP.val_main_v9_eq, Cert.ReferenceIdeal.RefValue.result_eq, a0, a1, a5, a6, a7, a8]

end Cert.Proof.Claims

end
-- ==== Proof.lean ====
/-
  `Cert.Claim`: a point convolution over 16 neighbours followed by a linear layer, computed blockwise by the kernel
  (400 points per grid point; gathered and additional features contracted separately, then stacked) and whole by the
  reference (features joined first, then contracted), are one function of the arguments over the extended reals.

  Proof/Spec.lean states that function; Proof/RefSide.lean reads the reference's stages into it; Proof/Body.lean,
  Proof/Payload.lean and Proof/Point.lean read the kernel body's stored value into it at one grid point;
  Proof/Blocks.lean assembles the grid's blocks into the result array; Proof/Gathered.lean identifies the gathered
  features the kernel's region finds with the reference's; Proof/Claims.lean proves the five claims.  The witnesses of
  the programs' stated side conditions are the generated instances.
-/
import proofs.«128024_j8778913153257_2_alg».proof.Defs
import proofs.«128024_j8778913153257_2_alg».proof.Proof.Gen.Kernel
import proofs.«128024_j8778913153257_2_alg».proof.Proof.Gen.KernelIdeal
import proofs.«128024_j8778913153257_2_alg».proof.Proof.Gen.ReferenceIdeal
import proofs.«128024_j8778913153257_2_alg».proof.Proof.Gen.Pre_finite_inputs
import proofs.«128024_j8778913153257_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
